-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S1600000x1 : Shape := ⟨2, ![1600000, 1]⟩
abbrev S100000 : Shape := ⟨1, ![100000]⟩
abbrev S1x7 : Shape := ⟨2, ![1, 7]⟩
abbrev S7 : Shape := ⟨1, ![7]⟩
abbrev S7x128 : Shape := ⟨2, ![7, 128]⟩
abbrev S128 : Shape := ⟨1, ![128]⟩
abbrev S1x128 : Shape := ⟨2, ![1, 128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1x7 : S_.BroadcastsInDim S1x7 (![] : Fin 0 → Fin S1x7.rank)
  reducesTo_S1x7_S_d0_1 : S1x7.ReducesTo [0, 1] S_
  bcast_S_S7 : S_.BroadcastsInDim S7 (![] : Fin 0 → Fin S7.rank)
  reducesTo_S7_S_d0 : S7.ReducesTo [0] S_
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part4 {F : FTy → Type} [FloatOps F] (main_arg16 : FVec F S128x5 .f32) (main_arg17 : FVec F S5 .f32) (main_v63 : IVec S_ 1) (main_v67 : IVec S_ 1) : IVec S_ 1 :=
  let main_v68 : IVec S_ 1 := andi main_v63 main_v67
  let main_v69 : FVec F S128x5 .f32 := Host.absf main_arg16
  let main_cst_26 : FVec F S_ .f32 := constant S_ .f32 0x7F800000#32
  let main_v70 : FVec F S128x5 .f32 := broadcastInDim S128x5 ![] bcast_S_S128x5 main_cst_26
  let main_v71 : IVec S128x5 1 := cmpf .olt main_v69 main_v70
  let main_c_27 : IVec S_ 1 := constantI S_ 1 1#1
  let main_v72 : IVec S_ 1 := (fun x v => Host.reduce IntOp.andi x v reducesTo_S128x5_S_d0_1 h_S_) main_v71 main_c_27
  let main_v73 : IVec S_ 1 := andi main_v68 main_v72
  let main_v74 : FVec F S5 .f32 := Host.absf main_arg17
  let main_cst_28 : FVec F S_ .f32 := constant S_ .f32 0x7F800000#32
  let main_v75 : FVec F S5 .f32 := broadcastInDim S5 ![] bcast_S_S5 main_cst_28
  let main_v76 : IVec S5 1 := cmpf .olt main_v74 main_v75
  let main_c_29 : IVec S_ 1 := constantI S_ 1 1#1
  let main_v77 : IVec S_ 1 := (fun x v => Host.reduce IntOp.andi x v reducesTo_S5_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x5 .f32) (main_arg17 : FVec F S5 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S1x128 .f32) (main_arg13 : FVec F S128 .f32) (main_arg14 : FVec F S128x128 .f32) (main_arg15 : FVec F S128 .f32) (main_arg16 : FVec F S128x5 .f32) (main_arg17 : FVec F S5 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg12
  let main_cst_18 : FVec F S_ .f32 := constant S_ .f32 0x7F800000#32
  let main_v50 : FVec F S1x128 .f32 := broadcastInDim S1x128 ![] bcast_S_S1x128 main_cst_18
  fn_part3 (F := F) main_arg13 main_arg14 main_arg15 main_arg16 main_arg17 main_v48 main_v49 main_v50

def fn_part1 {F : FTy → Type} [FloatOps F] (main_arg6 : FVec F S7x128 .f32) (main_arg7 : FVec F S128 .f32) (main_arg8 : FVec F S1x128 .f32) (main_arg9 : FVec F S128 .f32) (main_arg10 : FVec F S128x128 .f32) (main_arg11 : FVec F S128 .f32) (main_arg12 : FVec F S1x128 .f32) (main_arg13 : FVec F S128 .f32) (main_arg14 : FVec F S128x128 .f32) (main_arg15 : FVec F S128 .f32) (main_arg16 : FVec F S128x5 .f32) (main_arg17 : FVec F S5 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7x128 .f32 := Host.absf main_arg6
  let main_cst_6 : FVec F S_ .f32 := constant S_ .f32 0x7F800000#32
  let main_v20 : FVec F S7x128 .f32 := broadcastInDim S7x128 ![] bcast_S_S7x128 main_cst_6
  let main_v21 : IVec S7x128 1 := cmpf .olt main_v19 main_v20
  let main_c_7 : IVec S_ 1 := constantI S_ 1 1#1
  let main_v22 : IVec S_ 1 := (fun x v => Host.reduce IntOp.andi x v reducesTo_S7x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg8
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x7 .f32) (main_arg1 : IVec S2x1600000 32) (main_arg2 : FVec F S1600000x1 .f32) (main_arg3 : IVec S100000 32) (main_arg4 : FVec F S1x7 .f32) (main_arg5 : FVec F S7 .f32) (main_arg6 : FVec F S7x128 .f32) (main_arg7 : FVec F S128 .f32) (main_arg8 : FVec F S1x128 .f32) (main_arg9 : FVec F S128 .f32) (main_arg10 : FVec F S128x128 .f32) (main_arg11 : FVec F S128 .f32) (main_arg12 : FVec F S1x128 .f32) (main_arg13 : FVec F S128 .f32) (main_arg14 : FVec F S128x128 .f32) (main_arg15 : FVec F S128 .f32) (main_arg16 : FVec F S128x5 .f32) (main_arg17 : FVec F S5 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1x7 .f32 := Host.absf main_arg4
  let main_cst_2 : FVec F S_ .f32 := constant S_ .f32 0x7F800000#32
  let main_v10 : FVec F S1x7 .f32 := broadcastInDim S1x7 ![] bcast_S_S1x7 main_cst_2
  let main_v11 : IVec S1x7 1 := cmpf .olt main_v9 main_v10
  let main_c_3 : IVec S_ 1 := constantI S_ 1 1#1
  let main_v12 : IVec S_ 1 := (fun x v => Host.reduce IntOp.andi x v reducesTo_S1x7_S_d0_1 h_S_) main_v11 main_c_3
  let main_v13 : IVec S_ 1 := andi main_v8 main_v12
  let main_v14 : FVec F S7 .f32 := Host.absf main_arg5
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x7 : Shape := ⟨2, ![100000, 7]⟩
abbrev S2x1600000 : Shape := ⟨2, ![2, 1600000]⟩
abbrev S1600000x1 : Shape := ⟨2, ![1600000, 1]⟩
abbrev S100000 : Shape := ⟨1, ![100000]⟩
abbrev S1x7 : Shape := ⟨2, ![1, 7]⟩
abbrev S7 : Shape := ⟨1, ![7]⟩
abbrev S7x128 : Shape := ⟨2, ![7, 128]⟩
abbrev S128 : Shape := ⟨1, ![128]⟩
abbrev S1x128 : Shape := ⟨2, ![1, 128]⟩
abbrev S128x128 : Shape := ⟨2, ![128, 128]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x7 : Shape := ⟨2, ![1600000, 7]⟩
abbrev S8000x7 : Shape := ⟨2, ![8000, 7]⟩
abbrev S8000x1 : Shape := ⟨2, ![8000, 1]⟩
abbrev S100000x128 : Shape := ⟨2, ![100000, 128]⟩
abbrev S5000x7 : Shape := ⟨2, ![5000, 7]⟩
abbrev S5000x128 : Shape := ⟨2, ![5000, 128]⟩
abbrev S1600000x128 : Shape := ⟨2, ![1600000, 128]⟩
abbrev S8000x128 : Shape := ⟨2, ![8000, 128]⟩
abbrev S8x128 : Shape := ⟨2, ![8, 128]⟩
abbrev S100000x1 : Shape := ⟨2, ![100000, 1]⟩
abbrev S8x1 : Shape := ⟨2, ![8, 1]⟩
abbrev S8x5 : Shape := ⟨2, ![8, 5]⟩
abbrev S1x5 : Shape := ⟨2, ![1, 5]⟩

abbrev nBuf : Space → Nat
  | .hbm => 92
  | .vmem => 48
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S1600000x1, .f32⟩
  | .hbm, ⟨3, _⟩ => ⟨S100000, .i32⟩
  | .hbm, ⟨4, _⟩ => ⟨S1x7, .f32⟩
  | .hbm, ⟨5, _⟩ => ⟨S7, .f32⟩
  | .hbm, ⟨6, _⟩ => ⟨S7x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x5, .f32⟩
  | .hbm, ⟨17, _⟩ => ⟨S5, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x7, .f32⟩
  | .hbm, ⟨31, _⟩ => ⟨S1x7, .f32⟩
  | .hbm, ⟨32, _⟩ => ⟨S1600000x7, .f32⟩
  | .hbm, ⟨33, _⟩ => ⟨S_, .f32⟩
  | .hbm, ⟨34, _⟩ => ⟨S100000x7, .f32⟩
  | .hbm, ⟨35, _⟩ => ⟨S1600000x1, .i32⟩
  | .hbm, ⟨36, _⟩ => ⟨S100000x7, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S_, .f32⟩
  | .hbm, ⟨74, _⟩ => ⟨S8x128, .f32⟩
  | .hbm, ⟨75, _⟩ => ⟨S100000x1, .i32⟩
  | .hbm, ⟨76, _⟩ => ⟨S8x128, .f32⟩
  | .hbm, ⟨77, _⟩ => ⟨S_, .f32⟩
  | .hbm, ⟨78, _⟩ => ⟨S100000x1, .f32⟩
  | .hbm, ⟨79, _⟩ => ⟨S_, .f32⟩
  | .hbm, ⟨80, _⟩ => ⟨S8x1, .f32⟩
  | .hbm, ⟨81, _⟩ => ⟨S100000x1, .i32⟩
  | .hbm, ⟨82, _⟩ => ⟨S8x1, .f32⟩
  | .hbm, ⟨83, _⟩ => ⟨S_, .f32⟩
  | .hbm, ⟨84, _⟩ => ⟨S8x1, .f32⟩
  | .hbm, ⟨85, _⟩ => ⟨S8x1, .f32⟩
  | .hbm, ⟨86, _⟩ => ⟨S8x128, .f32⟩
  | .hbm, ⟨87, _⟩ => ⟨S8x128, .f32⟩
  | .hbm, ⟨88, _⟩ => ⟨S8x5, .f32⟩
  | .hbm, ⟨89, _⟩ => ⟨S1x5, .f32⟩
  | .hbm, ⟨90, _⟩ => ⟨S8x5, .f32⟩
  | .hbm, ⟨91, _⟩ => ⟨S8x5, .f32⟩
  | .local _ .vmem, ⟨0, _⟩ => ⟨S8000x7, .f32⟩
  | .local _ .vmem, ⟨1, _⟩ => ⟨S8000x7, .f32⟩
  | .local _ .vmem, ⟨2, _⟩ => ⟨S8000x1, .f32⟩
  | .local _ .vmem, ⟨3, _⟩ => ⟨S8000x1, .f32⟩
  | .local _ .vmem, ⟨4, _⟩ => ⟨S1x7, .f32⟩
  | .local _ .vmem, ⟨5, _⟩ => ⟨S1x7, .f32⟩
  | .local _ .vmem, ⟨6, _⟩ => ⟨S8000x7, .f32⟩
  | .local _ .vmem, ⟨7, _⟩ => ⟨S8000x7, .f32⟩
  | .local _ .vmem, ⟨8, _⟩ => ⟨S5000x7, .f32⟩
  | .local _ .vmem, ⟨9, _⟩ => ⟨S5000x7, .f32⟩
  | .local _ .vmem, ⟨10, _⟩ => ⟨S5000x7, .f32⟩
  | .local _ .vmem, ⟨11, _⟩ => ⟨S5000x7, .f32⟩
  | .local _ .vmem, ⟨12, _⟩ => ⟨S7x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S8000x128, .f32⟩
  | .local _ .vmem, ⟨17, _⟩ => ⟨S8000x128, .f32⟩
  | .local _ .vmem, ⟨18, _⟩ => ⟨S8000x1, .f32⟩
  | .local _ .vmem, ⟨19, _⟩ => ⟨S8000x1, .f32⟩
  | .local _ .vmem, ⟨20, _⟩ => ⟨S1x128, .f32⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8000x128, .f32⟩
  | .local _ .vmem, ⟨33, _⟩ => ⟨S8000x128, .f32⟩
  | .local _ .vmem, ⟨34, _⟩ => ⟨S8000x1, .f32⟩
  | .local _ .vmem, ⟨35, _⟩ => ⟨S8000x1, .f32⟩
  | .local _ .vmem, ⟨36, _⟩ => ⟨S1x128, .f32⟩
  | .local _ .vmem, ⟨37, _⟩ => ⟨S1x128, .f32⟩
  | .local _ .vmem, ⟨38, _⟩ => ⟨S8000x128, .f32⟩
  | .local _ .vmem, ⟨39, _⟩ => ⟨S8000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S7_S1x7 : S7.ShapeCasts S1x7
  inb_S8000x1_S8000x1_0_0 : ∀ a, (![0, 0] : Fin 2 → Nat) a + S8000x1.size a ≤ S8000x1.size a
  h_S8000x1 : 0 < S8000x1.numel
  inb_S1x7_S1x7_0_0 : ∀ a, (![0, 0] : Fin 2 → Nat) a + S1x7.size a ≤ S1x7.size a
  h_S1x7 : 0 < S1x7.numel
  broadcasts_S8000x1_S8000x7 : S8000x1.Broadcasts S8000x7
  broadcasts_S1x7_S8000x7 : S1x7.Broadcasts S8000x7
  shapeCasts_S1x7_S1x7 : S1x7.ShapeCasts S1x7
  inb_S8000x7_S8000x7_0_0 : ∀ a, (![0, 0] : Fin 2 → Nat) a + S8000x7.size a ≤ S8000x7.size a
  h_S8000x7 : 0 < S8000x7.numel
  shapeCasts_S8000x7_S8000x7 : S8000x7.ShapeCasts S8000x7
  bcast_S_S100000x7 : S_.BroadcastsInDim S100000x7 (![] : Fin 0 → Fin S100000x7.rank)
  shapeCasts_S128_S1x128 : S128.ShapeCasts S1x128
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  broadcasts_S8000x1_S8000x128 : S8000x1.Broadcasts S8000x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S8x128 : S_.BroadcastsInDim S8x128 (![] : Fin 0 → Fin S8x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S5_S1x5_1 : S5.BroadcastsInDim S1x5 (![1] : Fin 1 → Fin S1x5.rank)
  bcast_S1x5_S8x5_0_1 : S1x5.BroadcastsInDim S8x5 (![0, 1] : Fin 2 → Fin S8x5.rank)
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S5000x7_S7x128_S5000x128_1_0_0_1_n_n_wf : DotDims.WF S5000x7 S7x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S8x128_S100000x1_S100000x128_1_0_0_1_wf : ScatterDims.WF S8x128 S100000x1 S100000x128 [1] [0] [0] 1
  scatter_S8x1_S100000x1_S100000x1_1_0_0_1_wf : ScatterDims.WF S8x1 S100000x1 S100000x1 [1] [0] [0] 1
  dot_S8x128_S128x5_S8x5_1_0_0_1_n_n_wf : DotDims.WF S8x128 S128x5 S8x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x7.size a ≤ S1600000x7.size a
  hwx0_0 : ∀ i : grid0.Coords, EltTy.bits .f32 = 32 ∨ (Rect.block (s := S1600000x7) S8000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1600000x1.size a
  hwx0_1 : ∀ i : grid0.Coords, EltTy.bits .f32 = 32 ∨ (Rect.block (s := S1600000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x7.size a ≤ S1600000x7.size a
  hwx0_4 : ∀ i : grid0.Coords, EltTy.bits .f32 = 32 ∨ (Rect.block (s := S1600000x7) S8000x7.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x7.size a ≤ S100000x7.size a
  hwx1_0 : ∀ i : grid1.Coords, EltTy.bits .f32 = 32 ∨ (Rect.block (s := S100000x7) S5000x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x7.size a ≤ S100000x7.size a
  hwx1_1 : ∀ i : grid1.Coords, EltTy.bits .f32 = 32 ∨ (Rect.block (s := S100000x7) S5000x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7x128.size a ≤ S7x128.size a
  hwx1_2 : ∀ i : grid1.Coords, EltTy.bits .f32 = 32 ∨ (Rect.block (s := S7x128) S7x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1600000x1.size a
  hwx2_1 : ∀ i : grid2.Coords, EltTy.bits .f32 = 32 ∨ (Rect.block (s := S1600000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S1600000x128.size a
  hwx2_4 : ∀ i : grid2.Coords, EltTy.bits .f32 = 32 ∨ (Rect.block (s := S1600000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S1600000x128.size a
  hwx4_0 : ∀ i : grid4.Coords, EltTy.bits .f32 = 32 ∨ (Rect.block (s := S1600000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1600000x1.size a
  hwx4_1 : ∀ i : grid4.Coords, EltTy.bits .f32 = 32 ∨ (Rect.block (s := S1600000x1) S8000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x128.size a ≤ S1600000x128.size a
  hwx4_4 : ∀ i : grid4.Coords, EltTy.bits .f32 = 32 ∨ (Rect.block (s := S1600000x128) S8000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S8x128_S100000x1_S100000x128_1_0_0_1 : ScatterDims S8x128 S100000x1 S100000x128 where
  updateWindowDims := [1]
  insertedWindowDims := [0]
  scatterDimsToOperandDims := [0]
  indexVectorDim := 1
  wf := scatter_S8x128_S100000x1_S100000x128_1_0_0_1_wf
def scatter_S8x1_S100000x1_S100000x1_1_0_0_1 : ScatterDims S8x1 S100000x1 S100000x1 where
  updateWindowDims := [1]
  insertedWindowDims := [0]
  scatterDimsToOperandDims := [0]
  indexVectorDim := 1
  wf := scatter_S8x1_S100000x1_S100000x1_1_0_0_1_wf
def dot_S8x128_S128x5_S8x5_1_0_0_1_n_n : DotDims S8x128 S128x5 S8x5 where
  lhsContracting := [1]
  rhsContracting := [0]
  lhsNonContracting := [0]
  rhsNonContracting := [1]
  lhsBatch := []
  rhsBatch := []
  wf := dot_S8x128_S128x5_S8x5_1_0_0_1_n_n_wf

abbrev win0_0 : Pipeline.Window sig grid0 :=
  Pipeline.Window.ofSpec (Memref.whole main_v10) S8000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x7.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S7x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S8000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v43) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v45) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S1600000x1 : Shape := ⟨2, ![1600000, 1]⟩
abbrev S100000 : Shape := ⟨1, ![100000]⟩
abbrev S1x7 : Shape := ⟨2, ![1, 7]⟩
abbrev S7 : Shape := ⟨1, ![7]⟩
abbrev S7x128 : Shape := ⟨2, ![7, 128]⟩
abbrev S128 : Shape := ⟨1, ![128]⟩
abbrev S1x128 : Shape := ⟨2, ![1, 128]⟩
abbrev S128x128 : Shape := ⟨2, ![128, 128]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S1600000x7 : Shape := ⟨2, ![1600000, 7]⟩
abbrev S_ : Shape := ⟨0, ![]⟩
abbrev S100000x128 : Shape := ⟨2, ![100000, 128]⟩
abbrev S1600000x128 : Shape := ⟨2, ![1600000, 128]⟩
abbrev S8x128 : Shape := ⟨2, ![8, 128]⟩
abbrev S100000x1 : Shape := ⟨2, ![100000, 1]⟩
abbrev S8x1 : Shape := ⟨2, ![8, 1]⟩
abbrev S8x5 : Shape := ⟨2, ![8, 5]⟩
abbrev S1x5 : Shape := ⟨2, ![1, 5]⟩

abbrev nBuf : Space → Nat
  | .hbm => 143
  | .vmem => 0
  | .smem => 0
  | _ => 0

abbrev hbmTy0_0 (i : Nat) : BufTy := match i % 128 with
  | 0 => ⟨S100000x7, .f32⟩
  | 1 => ⟨S2x1600000, .i32⟩
  | 2 => ⟨S1600000x1, .f32⟩
  | 3 => ⟨S100000, .i32⟩
  | 4 => ⟨S1x7, .f32⟩
  | 5 => ⟨S7, .f32⟩
  | 6 => ⟨S7x128, .f32⟩
  | 7 => ⟨S128, .f32⟩
  | 8 => ⟨S1x128, .f32⟩
  | 9 => ⟨S128, .f32⟩
  | 10 => ⟨S128x128, .f32⟩
  | 11 => ⟨S128, .f32⟩
  | 12 => ⟨S1x128, .f32⟩
  | 13 => ⟨S128, .f32⟩
  | 14 => ⟨S128x128, .f32⟩
  | 15 => ⟨S128, .f32⟩
  | 16 => ⟨S128x5, .f32⟩
  | 17 => ⟨S5, .f32⟩
  | 18 => ⟨S1x1600000, .i32⟩
  | 19 => ⟨S1600000, .i32⟩
  | 20 => ⟨S1x1600000, .i32⟩
  | 21 => ⟨S1600000, .i32⟩
  | 22 => ⟨S1600000x7, .f32⟩
  | 23 => ⟨S1x7, .f32⟩
  | 24 => ⟨S1600000x7, .f32⟩
  | 25 => ⟨S1600000x7, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x7, .f32⟩
  | 35 => ⟨S1600000x7, .f32⟩
  | 36 => ⟨S_, .f32⟩
  | 37 => ⟨S1600000x7, .f32⟩
  | 38 => ⟨S1600000x7, .f32⟩
  | 39 => ⟨S_, .f32⟩
  | 40 => ⟨S100000x7, .f32⟩
  | 41 => ⟨S1600000x1, .i32⟩
  | 42 => ⟨S100000x7, .f32⟩
  | 43 => ⟨S_, .f32⟩
  | 44 => ⟨S100000x7, .f32⟩
  | 45 => ⟨S100000x7, .f32⟩
  | 46 => ⟨S100000x7, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S1600000x128, .f32⟩
  | 58 => ⟨S1x128, .f32⟩
  | 59 => ⟨S1600000x128, .f32⟩
  | 60 => ⟨S1600000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x128, .f32⟩
  | 71 => ⟨S_, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S1600000x128, .f32⟩
  | 93 => ⟨S1x128, .f32⟩
  | 94 => ⟨S1600000x128, .f32⟩
  | 95 => ⟨S1600000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x128, .f32⟩
  | 106 => ⟨S_, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .f32⟩
  | 125 => ⟨S8x128, .f32⟩
  | 126 => ⟨S100000x1, .i32⟩
  | 127 => ⟨S8x128, .f32⟩
  | _ => ⟨S100000x7, .f32⟩

abbrev hbmTy0_1 (i : Nat) : BufTy := match i % 128 with
  | 0 => ⟨S_, .f32⟩
  | 1 => ⟨S100000x1, .f32⟩
  | 2 => ⟨S_, .f32⟩
  | 3 => ⟨S8x1, .f32⟩
  | 4 => ⟨S100000x1, .i32⟩
  | 5 => ⟨S8x1, .f32⟩
  | 6 => ⟨S_, .f32⟩
  | 7 => ⟨S8x1, .f32⟩
  | 8 => ⟨S8x1, .f32⟩
  | 9 => ⟨S8x128, .f32⟩
  | 10 => ⟨S8x128, .f32⟩
  | 11 => ⟨S8x5, .f32⟩
  | 12 => ⟨S1x5, .f32⟩
  | 13 => ⟨S8x5, .f32⟩
  | 14 => ⟨S8x5, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_call2_cst : Ref sig .tc := ⟨.hbm, 54, rfl⟩
abbrev main_call2_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_c_3 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call3_cst : Ref sig .tc := ⟨.hbm, 71, rfl⟩
abbrev main_call3_v0 : Ref sig .tc := ⟨.hbm, 72, rfl⟩
abbrev main_v41 : Ref sig .tc := ⟨.hbm, 73, rfl⟩
abbrev main_cst_4 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_5 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call4_cst : Ref sig .tc := ⟨.hbm, 86, rfl⟩
abbrev main_call4_v0 : Ref sig .tc := ⟨.hbm, 87, rfl⟩
abbrev main_v52 : Ref sig .tc := ⟨.hbm, 88, rfl⟩
abbrev main_call5_cst : Ref sig .tc := ⟨.hbm, 89, rfl⟩
abbrev main_call5_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_6 : Ref sig .tc := ⟨.hbm, 96, rfl⟩
abbrev main_v58 : Ref sig .tc := ⟨.hbm, 97, rfl⟩
abbrev main_v59 : Ref sig .tc := ⟨.hbm, 98, rfl⟩
abbrev main_c_7 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_call6_cst : Ref sig .tc := ⟨.hbm, 106, rfl⟩
abbrev main_call6_v0 : Ref sig .tc := ⟨.hbm, 107, rfl⟩
abbrev main_v66 : Ref sig .tc := ⟨.hbm, 108, rfl⟩
abbrev main_cst_8 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_9 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call7_cst : Ref sig .tc := ⟨.hbm, 121, rfl⟩
abbrev main_call7_v0 : Ref sig .tc := ⟨.hbm, 122, rfl⟩
abbrev main_v77 : Ref sig .tc := ⟨.hbm, 123, rfl⟩
abbrev main_cst_10 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_11 : Ref sig .tc := ⟨.hbm, 128, rfl⟩
abbrev main_v81 : Ref sig .tc := ⟨.hbm, 129, rfl⟩
abbrev main_cst_12 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_13 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S7_S1x7_1 : S7.BroadcastsInDim S1x7 (![1] : Fin 1 → Fin S1x7.rank)
  bcast_S1x7_S1600000x7_0_1 : S1x7.BroadcastsInDim S1600000x7 (![0, 1] : Fin 2 → Fin S1600000x7.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x7 : S_.BroadcastsInDim S1600000x7 (![] : Fin 0 → Fin S1600000x7.rank)
  bcast_S_S100000x7 : S_.BroadcastsInDim S100000x7 (![] : Fin 0 → Fin S100000x7.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S8x128 : S_.BroadcastsInDim S8x128 (![] : Fin 0 → Fin S8x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S5_S1x5_1 : S5.BroadcastsInDim S1x5 (![1] : Fin 1 → Fin S1x5.rank)
  bcast_S1x5_S8x5_0_1 : S1x5.BroadcastsInDim S8x5 (![0, 1] : Fin 2 → Fin S8x5.rank)
  dot_S1600000x1_S1x7_S1600000x7_1_0_0_1_n_n_wf : DotDims.WF S1600000x1 S1x7 S1600000x7 [1] [0] [0] [1] [] []
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x128_S100000x128_1_0_0_1_n_n_wf : DotDims.WF S100000x7 S7x128 S100000x128 [1] [0] [0] [1] [] []
  dot_S1600000x1_S1x128_S1600000x128_1_0_0_1_n_n_wf : DotDims.WF S1600000x1 S1x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S8x128_S100000x1_S100000x128_1_0_0_1_wf : ScatterDims.WF S8x128 S100000x1 S100000x128 [1] [0] [0] 1
  scatter_S8x1_S100000x1_S100000x1_1_0_0_1_wf : ScatterDims.WF S8x1 S100000x1 S100000x1 [1] [0] [0] 1
  dot_S8x128_S128x5_S8x5_1_0_0_1_n_n_wf : DotDims.WF S8x128 S128x5 S8x5 [1] [0] [0] [1] [] []

variable [Facts₀]

def dot_S1600000x1_S1x7_S1600000x7_1_0_0_1_n_n : DotDims S1600000x1 S1x7 S1600000x7 where
  lhsContracting := [1]
  rhsContracting := [0]
  lhsNonContracting := [0]
  rhsNonContracting := [1]
  lhsBatch := []
  rhsBatch := []
  wf := dot_S1600000x1_S1x7_S1600000x7_1_0_0_1_n_n_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S8x128_S100000x1_S100000x128_1_0_0_1 : ScatterDims S8x128 S100000x1 S100000x128 where
  updateWindowDims := [1]
  insertedWindowDims := [0]
  scatterDimsToOperandDims := [0]
  indexVectorDim := 1
  wf := scatter_S8x128_S100000x1_S100000x128_1_0_0_1_wf
def scatter_S8x1_S100000x1_S100000x1_1_0_0_1 : ScatterDims S8x1 S100000x1 S100000x1 where
  updateWindowDims := [1]
  insertedWindowDims := [0]
  scatterDimsToOperandDims := [0]
  indexVectorDim := 1
  wf := scatter_S8x1_S100000x1_S100000x1_1_0_0_1_wf
def dot_S8x128_S128x5_S8x5_1_0_0_1_n_n : DotDims S8x128 S128x5 S8x5 where
  lhsContracting := [1]
  rhsContracting := [0]
  lhsNonContracting := [0]
  rhsNonContracting := [1]
  lhsBatch := []
  rhsBatch := []
  wf := dot_S8x128_S128x5_S8x5_1_0_0_1_n_n_wf

class Facts : Prop extends Facts₀ where

variable [Facts]
-- ==== Proof.KernelRun.lean ====
/-
  The kernel program's run with its result named. The program is seven stretches of host operations around six
  kernel regions; the contents of the TensorCore's buffers at each of the thirteen boundaries between them are a
  fold from the launch memory (a stretch applies its operations; a region leaves each of its arrays at what its
  write-backs fold to and every other buffer as it was). Every weakly fair execution terminates, nothing
  faulting, with the argument arrays as launched and the result array `main_v60` at the last boundary's contents
  of that buffer: the last thread state holds every unscoped buffer at those contents, and `main_v60` is one of them.
-/
import proofs.«117926_j9294309228817_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program: the result array at the last boundary's contents, the arguments unchanged. -/
theorem run_named : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c)⟩)

end Cert.KernelIdeal.RunValue

end
-- ==== Proof.KernelThru.lean ====
/-
  What each boundary of the kernel program leaves unchanged. The buffer contents at the thirteen boundaries are a
  fold: a stretch of host operations changes only the buffers its operations write, and a kernel region changes
  only its one output array (its four input arrays end as they were entered, every other buffer is untouched).
  So a buffer read at a late boundary holds what the last item that wrote it left there; these are the single
  steps of that walk back, one per stretch and one per region, for an arbitrary buffer.
-/
import proofs.«117926_j9294309228817_1_alg».proof.Proof.Gen.KernelIdeal.Frame
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ) (ρ : Dev nD → PrngReg)

/-! ## The buffers each stretch of host operations writes -/

/-- The buffers the operations of stretch 0 write: one result buffer each. -/
abbrev hostOps0_W : List (Ref sig .tc) := [main_v0, main_v1, main_v2, main_v3, main_c, main_v4, main_v5, main_c_0, main_v6, main_v7, main_v8, main_v9, main_v10, main_v11]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 1 write: one result buffer each. -/
abbrev hostOps1_W : List (Ref sig .tc) := [main_cst, main_v13, main_v14, main_v15, main_v16]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 2 write: one result buffer each. -/
abbrev hostOps2_W : List (Ref sig .tc) := [main_c_1, main_v18, main_v19, main_c_2, main_v20, main_v21, main_v22, main_v23, main_v24, main_v25]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 3 write: one result buffer each. -/
abbrev hostOps3_W : List (Ref sig .tc) := [main_cst_3, main_v27, main_v28, main_v29, main_v30]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 4 write: one result buffer each. -/
abbrev hostOps4_W : List (Ref sig .tc) := [main_c_4, main_v32, main_v33, main_c_5, main_v34, main_v35, main_v36, main_v37, main_v38, main_v39]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of stretch 5 write: one result buffer each. -/
abbrev hostOps5_W : List (Ref sig .tc) := [main_cst_6, main_v41, main_v42, main_v43, main_v44]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## A stretch leaves every buffer it does not write as it was -/

theorem host_thru0 (c : Dev nD) (r : Ref sig .tc) (h : r ∉ hostOps0_W) :
    W1 m ρ c (Proc.devRef .tc r) = W0 m ρ c (Proc.devRef .tc r) :=
  StableHlo.after_of_writes_sub hostOps0 _ hostOps0_writes h

theorem host_thru1 (c : Dev nD) (r : Ref sig .tc) (h : r ∉ hostOps1_W) :
    W3 m ρ c (Proc.devRef .tc r) = W2 m ρ c (Proc.devRef .tc r) :=
  StableHlo.after_of_writes_sub hostOps1 _ hostOps1_writes h

theorem host_thru2 (c : Dev nD) (r : Ref sig .tc) (h : r ∉ hostOps2_W) :
    W5 m ρ c (Proc.devRef .tc r) = W4 m ρ c (Proc.devRef .tc r) :=
  StableHlo.after_of_writes_sub hostOps2 _ hostOps2_writes h

theorem host_thru3 (c : Dev nD) (r : Ref sig .tc) (h : r ∉ hostOps3_W) :
    W7 m ρ c (Proc.devRef .tc r) = W6 m ρ c (Proc.devRef .tc r) :=
  StableHlo.after_of_writes_sub hostOps3 _ hostOps3_writes h

theorem host_thru4 (c : Dev nD) (r : Ref sig .tc) (h : r ∉ hostOps4_W) :
    W9 m ρ c (Proc.devRef .tc r) = W8 m ρ c (Proc.devRef .tc r) :=
  StableHlo.after_of_writes_sub hostOps4 _ hostOps4_writes h

theorem host_thru5 (c : Dev nD) (r : Ref sig .tc) (h : r ∉ hostOps5_W) :
    W11 m ρ c (Proc.devRef .tc r) = W10 m ρ c (Proc.devRef .tc r) :=
  StableHlo.after_of_writes_sub hostOps5 _ hostOps5_writes h

/-! ## A region leaves every buffer but its output array as it was

A buffer that is none of the region's five arrays is untouched; one of its four input arrays is never written back, so
it ends at its entry contents. -/

theorem region_thru0 (c : Dev nD) (r : Ref sig .tc) (h : r ≠ main_v12) :
    W2 m ρ c (Proc.devRef .tc r) = W1 m ρ c (Proc.devRef .tc r) := by
  by_cases hr : ∃ w : Fin cfg0.W, Pipeline.arrRef spec0 w = r
  · obtain ⟨w, rfl⟩ := hr
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact absurd rfl h
  · exact W2_of_ne m ρ c r fun w e => hr ⟨w, e⟩

theorem region_thru1 (c : Dev nD) (r : Ref sig .tc) (h : r ≠ main_v17) :
    W4 m ρ c (Proc.devRef .tc r) = W3 m ρ c (Proc.devRef .tc r) := by
  by_cases hr : ∃ w : Fin cfg1.W, Pipeline.arrRef spec1 w = r
  · obtain ⟨w, rfl⟩ := hr
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd rfl h
  · exact W4_of_ne m ρ c r fun w e => hr ⟨w, e⟩

theorem region_thru2 (c : Dev nD) (r : Ref sig .tc) (h : r ≠ main_v26) :
    W6 m ρ c (Proc.devRef .tc r) = W5 m ρ c (Proc.devRef .tc r) := by
  by_cases hr : ∃ w : Fin cfg2.W, Pipeline.arrRef spec2 w = r
  · obtain ⟨w, rfl⟩ := hr
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact absurd rfl h
  · exact W6_of_ne m ρ c r fun w e => hr ⟨w, e⟩

theorem region_thru3 (c : Dev nD) (r : Ref sig .tc) (h : r ≠ main_v31) :
    W8 m ρ c (Proc.devRef .tc r) = W7 m ρ c (Proc.devRef .tc r) := by
  by_cases hr : ∃ w : Fin cfg3.W, Pipeline.arrRef spec3 w = r
  · obtain ⟨w, rfl⟩ := hr
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact absurd rfl h
  · exact W8_of_ne m ρ c r fun w e => hr ⟨w, e⟩

theorem region_thru4 (c : Dev nD) (r : Ref sig .tc) (h : r ≠ main_v40) :
    W10 m ρ c (Proc.devRef .tc r) = W9 m ρ c (Proc.devRef .tc r) := by
  by_cases hr : ∃ w : Fin cfg4.W, Pipeline.arrRef spec4 w = r
  · obtain ⟨w, rfl⟩ := hr
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact absurd rfl h
  · exact W10_of_ne m ρ c r fun w e => hr ⟨w, e⟩

theorem region_thru5 (c : Dev nD) (r : Ref sig .tc) (h : r ≠ main_v45) :
    W12 m ρ c (Proc.devRef .tc r) = W11 m ρ c (Proc.devRef .tc r) := by
  by_cases hr : ∃ w : Fin cfg5.W, Pipeline.arrRef spec5 w = r
  · obtain ⟨w, rfl⟩ := hr
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (W12_arr m ρ c 3).trans (((dat5 (V11 m ρ) c).arrAt_in 3 rfl _).trans (A_eq5 (V11 m ρ) c 3))
    | ⟨4, _⟩ => exact absurd rfl h
  · exact W12_of_ne m ρ c r fun w e => hr ⟨w, e⟩

end Cert.KernelIdeal.RunValue

end
-- ==== Proof.Spec.lean ====
/-
  The two whole-array functions of one layer of the network, on the extended reals, index by index.

  A layer takes node features `h : [N, d]`, gathers the source node's row for every edge, adds the edge's
  attribute times a weight row plus a bias row, clamps at zero (the edge message), sums the messages into their
  target nodes, adds the node's own row, multiplies by a weight matrix, adds a bias row and clamps at zero
  (the node update). The gather and the scatter-add are the same host operations in both programs; what the
  two programs compute differently is only the edge message and the node update, and both are stated here once,
  over abstract extents, so that the kernel's blocks and the reference's host operations are read against
  ONE function each.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The message of every edge, row by row: entry `(e, j)` is
    `max (xs[e, j] + (ea[e, 0] * we[0, j] + be[0, j])) 0` — the gathered source row plus the edge attribute
    times the weight row plus the bias row, clamped at zero. -/
def edgeRows {E d : Nat} (xs : FVec Ideal ⟨2, ![E, d]⟩ .f32) (ea : FVec Ideal ⟨2, ![E, 1]⟩ .f32)
    (we : FVec Ideal ⟨2, ![1, d]⟩ .f32) (be : FVec Ideal ⟨2, ![1, d]⟩ .f32) : FVec Ideal ⟨2, ![E, d]⟩ .f32 :=
  fun i => max (xs i + (ea (ix2 (n0 := E) (n1 := 1) (i 0) 0) * we (ix2 (n0 := 1) (n1 := d) 0 (i 1))
    + be (ix2 (n0 := 1) (n1 := d) 0 (i 1)))) 0

/-- The update of every node, row by row: entry `(n, j)` is
    `max ((∑ k, (agg[n, k] + x[n, k]) * W[k, j]) + b[0, j]) 0` — the summed messages plus the node's own row,
    through the weight matrix, plus the bias row, clamped at zero. -/
def nodeRows {N d o : Nat} (agg x : FVec Ideal ⟨2, ![N, d]⟩ .f32) (W : FVec Ideal ⟨2, ![d, o]⟩ .f32)
    (b : FVec Ideal ⟨2, ![1, o]⟩ .f32) : FVec Ideal ⟨2, ![N, o]⟩ .f32 :=
  fun i => max ((∑ k : Fin d, (agg (ix2 (n0 := N) (n1 := d) (i 0) k) + x (ix2 (n0 := N) (n1 := d) (i 0) k))
    * W (ix2 (n0 := d) (n1 := o) k (i 1))) + b (ix2 (n0 := 1) (n1 := o) 0 (i 1))) 0

theorem edgeRows_apply {E d : Nat} (xs : FVec Ideal ⟨2, ![E, d]⟩ .f32) (ea : FVec Ideal ⟨2, ![E, 1]⟩ .f32)
    (we : FVec Ideal ⟨2, ![1, d]⟩ .f32) (be : FVec Ideal ⟨2, ![1, d]⟩ .f32) (p : Fin E) (q : Fin d) :
    edgeRows xs ea we be (ix2 p q) = max (xs (ix2 p q) + (ea (ix2 p 0) * we (ix2 0 q) + be (ix2 0 q))) 0 := rfl

theorem nodeRows_apply {N d o : Nat} (agg x : FVec Ideal ⟨2, ![N, d]⟩ .f32) (W : FVec Ideal ⟨2, ![d, o]⟩ .f32)
    (b : FVec Ideal ⟨2, ![1, o]⟩ .f32) (p : Fin N) (q : Fin o) :
    nodeRows agg x W b (ix2 p q)
      = max ((∑ k : Fin d, (agg (ix2 p k) + x (ix2 p k)) * W (ix2 k q)) + b (ix2 0 q)) 0 := rfl

end Cert.Spec

end
-- ==== Proof.Stages.lean ====
/-
  The stages of the network as functions of the arrays they read, on the extended reals.

  Per layer: the source rows gathered for every edge, the edge messages (`Cert.Spec.edgeRows`), the messages summed
  into their target nodes, the node features (`Cert.Spec.nodeRows`); after three layers the pooling tail. The gather,
  the scatter-add, the index columns and the tail are the host operations both programs run; they are named here
  once and never opened. `network` is the whole result as one function of the eighteen argument arrays.
-/
import proofs.«117926_j9294309228817_1_alg».proof.Proof.Gen.KernelIdeal
import proofs.«117926_j9294309228817_1_alg».proof.Proof.Spec
import Idealize.ShloMosaic.PureOps.Ideal

noncomputable section

namespace Cert.Stages

open Cert.KernelIdeal Cert.KernelIdeal.Gen Idealize.ShloMosaic

/-- Row 0 of the edge list: every edge's source node. -/
def srcEnds (a1 : (⟨S2x1600000, .i32⟩ : BufTy).Contents (Elt Ideal)) : (⟨S1600000, .i32⟩ : BufTy).Contents (Elt Ideal) :=
  shapeCast S1600000 (extractStridedSlice S1x1600000 ![0, 0] a1 slices_S2x1600000_S1x1600000_0_0) shapeCasts_S1x1600000_S1600000

/-- Row 1 of the edge list: every edge's target node. -/
def dstEnds (a1 : (⟨S2x1600000, .i32⟩ : BufTy).Contents (Elt Ideal)) : (⟨S1600000, .i32⟩ : BufTy).Contents (Elt Ideal) :=
  shapeCast S1600000 (extractStridedSlice S1x1600000 ![1, 0] a1 slices_S2x1600000_S1x1600000_1_0) shapeCasts_S1x1600000_S1600000

/-- A vector of node indices as a one-column matrix of start indices. -/
def colOf (v : (⟨S1600000, .i32⟩ : BufTy).Contents (Elt Ideal)) : (⟨S1600000x1, .i32⟩ : BufTy).Contents (Elt Ideal) :=
  broadcastInDim S1600000x1 ![0] bcast_S1600000_S1600000x1_0 v

/-- A vector of node indices with every negative index wrapped around by the number of nodes. -/
def wrapEnds (v : (⟨S1600000, .i32⟩ : BufTy).Contents (Elt Ideal)) : (⟨S1600000, .i32⟩ : BufTy).Contents (Elt Ideal) :=
  select (cmpi .slt v (broadcastInDim S1600000 ![] bcast_S_S1600000 (constantI S_ 32 0#32)))
    (addi v (broadcastInDim S1600000 ![] bcast_S_S1600000 (constantI S_ 32 100000#32))) v

/-- The source node of every edge as a column of gather start indices, a negative index wrapped around. -/
def srcCol (a1 : (⟨S2x1600000, .i32⟩ : BufTy).Contents (Elt Ideal)) : (⟨S1600000x1, .i32⟩ : BufTy).Contents (Elt Ideal) := colOf (wrapEnds (srcEnds a1))

/-- The target node of every edge as a column of scatter indices. -/
def dstCol (a1 : (⟨S2x1600000, .i32⟩ : BufTy).Contents (Elt Ideal)) : (⟨S1600000x1, .i32⟩ : BufTy).Contents (Elt Ideal) := colOf (dstEnds a1)

/-- A bias vector as a one-row matrix. -/
def row7 (b : (⟨S7, .f32⟩ : BufTy).Contents (Elt Ideal)) : (⟨S1x7, .f32⟩ : BufTy).Contents (Elt Ideal) := shapeCast S1x7 b shapeCasts_S7_S1x7
def row128 (b : (⟨S128, .f32⟩ : BufTy).Contents (Elt Ideal)) : (⟨S1x128, .f32⟩ : BufTy).Contents (Elt Ideal) := shapeCast S1x128 b shapeCasts_S128_S1x128

def zeros7 : (⟨S100000x7, .f32⟩ : BufTy).Contents (Elt Ideal) :=
  broadcastInDim S100000x7 ![] bcast_S_S100000x7 (constant (F := Ideal) S_ .f32 0x00000000#32)
def zeros128 : (⟨S100000x128, .f32⟩ : BufTy).Contents (Elt Ideal) :=
  broadcastInDim S100000x128 ![] bcast_S_S100000x128 (constant (F := Ideal) S_ .f32 0x00000000#32)

/-- The first layer's gathered source rows. -/
def gat1 (a0 : (⟨S100000x7, .f32⟩ : BufTy).Contents (Elt Ideal)) (a1 : (⟨S2x1600000, .i32⟩ : BufTy).Contents (Elt Ideal)) : (⟨S1600000x7, .f32⟩ : BufTy).Contents (Elt Ideal) :=
  Host.gather (α := Ideal .f32) gather_S100000x7_S1600000x1_S1600000x7_1_0_n_n_0_1_17 a0 (srcCol a1)

/-- The first layer's edge messages. -/
def msg1 (a0 : (⟨S100000x7, .f32⟩ : BufTy).Contents (Elt Ideal)) (a1 : (⟨S2x1600000, .i32⟩ : BufTy).Contents (Elt Ideal)) (a2 : (⟨S1600000x1, .f32⟩ : BufTy).Contents (Elt Ideal)) (a4 : (⟨S1x7, .f32⟩ : BufTy).Contents (Elt Ideal))
    (a5 : (⟨S7, .f32⟩ : BufTy).Contents (Elt Ideal)) : (⟨S1600000x7, .f32⟩ : BufTy).Contents (Elt Ideal) :=
  Cert.Spec.edgeRows (gat1 a0 a1) a2 a4 (row7 a5)

/-- The first layer's messages summed into their target nodes. -/
def agg1 (a0 : (⟨S100000x7, .f32⟩ : BufTy).Contents (Elt Ideal)) (a1 : (⟨S2x1600000, .i32⟩ : BufTy).Contents (Elt Ideal)) (a2 : (⟨S1600000x1, .f32⟩ : BufTy).Contents (Elt Ideal)) (a4 : (⟨S1x7, .f32⟩ : BufTy).Contents (Elt Ideal))
    (a5 : (⟨S7, .f32⟩ : BufTy).Contents (Elt Ideal)) : (⟨S100000x7, .f32⟩ : BufTy).Contents (Elt Ideal) :=
  Host.scatterAdd (F := Ideal) (φ := .f32) scatter_S100000x7_S1600000x1_S1600000x7_1_0_0_1 zeros7 (dstCol a1) (msg1 a0 a1 a2 a4 a5)

/-- The first layer's node features. -/
def feat1 (a0 : (⟨S100000x7, .f32⟩ : BufTy).Contents (Elt Ideal)) (a1 : (⟨S2x1600000, .i32⟩ : BufTy).Contents (Elt Ideal)) (a2 : (⟨S1600000x1, .f32⟩ : BufTy).Contents (Elt Ideal)) (a4 : (⟨S1x7, .f32⟩ : BufTy).Contents (Elt Ideal))
    (a5 : (⟨S7, .f32⟩ : BufTy).Contents (Elt Ideal)) (a6 : (⟨S7x128, .f32⟩ : BufTy).Contents (Elt Ideal)) (a7 : (⟨S128, .f32⟩ : BufTy).Contents (Elt Ideal)) : (⟨S100000x128, .f32⟩ : BufTy).Contents (Elt Ideal) :=
  Cert.Spec.nodeRows (agg1 a0 a1 a2 a4 a5) a0 a6 (row128 a7)

/-- A hidden layer's gathered source rows of the previous features `h`. -/
def gatH (h : (⟨S100000x128, .f32⟩ : BufTy).Contents (Elt Ideal)) (a1 : (⟨S2x1600000, .i32⟩ : BufTy).Contents (Elt Ideal)) : (⟨S1600000x128, .f32⟩ : BufTy).Contents (Elt Ideal) :=
  Host.gather (α := Ideal .f32) gather_S100000x128_S1600000x1_S1600000x128_1_0_n_n_0_1_1128 h (srcCol a1)

/-- A hidden layer's edge messages. -/
def msgH (h : (⟨S100000x128, .f32⟩ : BufTy).Contents (Elt Ideal)) (a1 : (⟨S2x1600000, .i32⟩ : BufTy).Contents (Elt Ideal)) (a2 : (⟨S1600000x1, .f32⟩ : BufTy).Contents (Elt Ideal)) (we : (⟨S1x128, .f32⟩ : BufTy).Contents (Elt Ideal))
    (be : (⟨S128, .f32⟩ : BufTy).Contents (Elt Ideal)) : (⟨S1600000x128, .f32⟩ : BufTy).Contents (Elt Ideal) :=
  Cert.Spec.edgeRows (gatH h a1) a2 we (row128 be)

/-- A hidden layer's messages summed into their target nodes. -/
def aggH (h : (⟨S100000x128, .f32⟩ : BufTy).Contents (Elt Ideal)) (a1 : (⟨S2x1600000, .i32⟩ : BufTy).Contents (Elt Ideal)) (a2 : (⟨S1600000x1, .f32⟩ : BufTy).Contents (Elt Ideal)) (we : (⟨S1x128, .f32⟩ : BufTy).Contents (Elt Ideal))
    (be : (⟨S128, .f32⟩ : BufTy).Contents (Elt Ideal)) : (⟨S100000x128, .f32⟩ : BufTy).Contents (Elt Ideal) :=
  Host.scatterAdd (F := Ideal) (φ := .f32) scatter_S100000x128_S1600000x1_S1600000x128_1_0_0_1 zeros128 (dstCol a1) (msgH h a1 a2 we be)

/-- A hidden layer's node features. -/
def featH (h : (⟨S100000x128, .f32⟩ : BufTy).Contents (Elt Ideal)) (a1 : (⟨S2x1600000, .i32⟩ : BufTy).Contents (Elt Ideal)) (a2 : (⟨S1600000x1, .f32⟩ : BufTy).Contents (Elt Ideal)) (we : (⟨S1x128, .f32⟩ : BufTy).Contents (Elt Ideal))
    (be : (⟨S128, .f32⟩ : BufTy).Contents (Elt Ideal)) (W : (⟨S128x128, .f32⟩ : BufTy).Contents (Elt Ideal)) (b : (⟨S128, .f32⟩ : BufTy).Contents (Elt Ideal)) : (⟨S100000x128, .f32⟩ : BufTy).Contents (Elt Ideal) :=
  Cert.Spec.nodeRows (aggH h a1 a2 we be) h W (row128 b)

/-- The pooling tail: the features summed per graph, divided by the graph's node count (at least one), through the
    last linear map. -/
def pooled (h : (⟨S100000x128, .f32⟩ : BufTy).Contents (Elt Ideal)) (a3 : (⟨S100000, .i32⟩ : BufTy).Contents (Elt Ideal)) (a16 : (⟨S128x5, .f32⟩ : BufTy).Contents (Elt Ideal)) (a17 : (⟨S5, .f32⟩ : BufTy).Contents (Elt Ideal)) : (⟨S8x5, .f32⟩ : BufTy).Contents (Elt Ideal) :=
  addf ((Host.dotGeneral (F := Ideal) (φ₁ := .f32) (φ₂ := .f32) dot_S8x128_S128x5_S8x5_1_0_0_1_n_n none
      (Host.divf (F := Ideal) (φ := .f32)
        (Host.scatterAdd (F := Ideal) (φ := .f32) scatter_S8x128_S100000x1_S100000x128_1_0_0_1 (broadcastInDim S8x128 ![] bcast_S_S8x128 (constant (F := Ideal) S_ .f32 0x00000000#32))
          (broadcastInDim S100000x1 ![0] bcast_S100000_S100000x1_0 a3) h)
        (broadcastInDim S8x128 ![0, 1] bcast_S8x1_S8x128_0_1
          (maximumf
            (Host.scatterAdd (F := Ideal) (φ := .f32) scatter_S8x1_S100000x1_S100000x1_1_0_0_1 (broadcastInDim S8x1 ![] bcast_S_S8x1 (constant (F := Ideal) S_ .f32 0x00000000#32))
              (broadcastInDim S100000x1 ![0] bcast_S100000_S100000x1_0 a3)
              (broadcastInDim S100000x1 ![] bcast_S_S100000x1 (constant (F := Ideal) S_ .f32 0x3F800000#32)))
            (broadcastInDim S8x1 ![] bcast_S_S8x1 (constant (F := Ideal) S_ .f32 0x3F800000#32)))))
      a16 : (⟨S8x5, .f32⟩ : BufTy).Contents (Elt Ideal)))
    (broadcastInDim S8x5 ![0, 1] bcast_S1x5_S8x5_0_1 (broadcastInDim S1x5 ![1] bcast_S5_S1x5_1 a17))

/-- The whole network: three layers, then the pooling tail. -/
def network (a0 : (⟨S100000x7, .f32⟩ : BufTy).Contents (Elt Ideal)) (a1 : (⟨S2x1600000, .i32⟩ : BufTy).Contents (Elt Ideal)) (a2 : (⟨S1600000x1, .f32⟩ : BufTy).Contents (Elt Ideal)) (a3 : (⟨S100000, .i32⟩ : BufTy).Contents (Elt Ideal))
    (a4 : (⟨S1x7, .f32⟩ : BufTy).Contents (Elt Ideal)) (a5 : (⟨S7, .f32⟩ : BufTy).Contents (Elt Ideal)) (a6 : (⟨S7x128, .f32⟩ : BufTy).Contents (Elt Ideal)) (a7 : (⟨S128, .f32⟩ : BufTy).Contents (Elt Ideal))
    (a8 : (⟨S1x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal))
    (a12 : (⟨S1x128, .f32⟩ : BufTy).Contents (Elt Ideal)) (a13 : (⟨S128, .f32⟩ : BufTy).Contents (Elt Ideal)) (a14 : (⟨S128x128, .f32⟩ : BufTy).Contents (Elt Ideal)) (a15 : (⟨S128, .f32⟩ : BufTy).Contents (Elt Ideal))
    (a16 : (⟨S128x5, .f32⟩ : BufTy).Contents (Elt Ideal)) (a17 : (⟨S5, .f32⟩ : BufTy).Contents (Elt Ideal)) : (⟨S8x5, .f32⟩ : BufTy).Contents (Elt Ideal) :=
  pooled (featH (featH (feat1 a0 a1 a2 a4 a5 a6 a7) a1 a2 a8 a9 a10 a11) a1 a2 a12 a13 a14 a15) a3 a16 a17

end Cert.Stages

end
-- ==== Proof.KernelChain.lean ====
/-
  The kernel program's result as one function of its argument arrays.

  Walking the fold of buffer contents back from the last boundary: the result is the pooling tail of the third
  layer's node features; each layer's node features read the scatter-add of that layer's edge messages and the
  previous layer's features; each layer's edge messages read the gather of the previous layer's features at the
  edges' source nodes. A buffer read at a boundary holds what the last item that wrote it left there: the argument
  arrays their launch contents, the edge list's two rows what the first stretch computed, a layer's features what
  its node region left. The six kernel regions enter as `edgeRows` / `nodeRows` of their input arrays (hypotheses
  here: each is proved at its own region); the host operations between them enter as themselves.
-/
import proofs.«117926_j9294309228817_1_alg».proof.Proof.KernelThru
import proofs.«117926_j9294309228817_1_alg».proof.Proof.Stages

set_option maxRecDepth 16384

noncomputable section

namespace Cert.KernelIdeal.RunValue

open Cert.KernelIdeal Cert.KernelIdeal.Gen Cert.Stages Idealize.ShloMosaic Idealize.ShloMosaic.TcCoe Idealize.SL.Sem Idealize.ShloMosaic.StableHlo

/-! ## What each stretch of host operations computes, from ANY contents it is entered with -/

theorem stretch0_v1 (V0 : Valuation τ sig (Elt Ideal)) :
    StableHlo.after hostOps0 V0 (Proc.devRef .tc main_v1) = srcEnds (V0 (Proc.devRef .tc main_arg1)) := by
  after_results_simp
  rfl

theorem stretch0_v3 (V0 : Valuation τ sig (Elt Ideal)) :
    StableHlo.after hostOps0 V0 (Proc.devRef .tc main_v3) = dstEnds (V0 (Proc.devRef .tc main_arg1)) := by
  after_results_simp
  rfl

theorem stretch0_v10 (V0 : Valuation τ sig (Elt Ideal)) :
    StableHlo.after hostOps0 V0 (Proc.devRef .tc main_v10) = gat1 (V0 (Proc.devRef .tc main_arg0)) (V0 (Proc.devRef .tc main_arg1)) := by
  after_results_simp
  rfl

theorem stretch0_v11 (V0 : Valuation τ sig (Elt Ideal)) :
    StableHlo.after hostOps0 V0 (Proc.devRef .tc main_v11) = row7 (V0 (Proc.devRef .tc main_arg5)) := by
  after_results_simp
  rfl

theorem stretch1_v15 (V0 : Valuation τ sig (Elt Ideal)) :
    StableHlo.after hostOps1 V0 (Proc.devRef .tc main_v15) = Host.scatterAdd (F := Ideal) (φ := .f32) scatter_S100000x7_S1600000x1_S1600000x7_1_0_0_1 zeros7 (colOf (V0 (Proc.devRef .tc main_v3))) (V0 (Proc.devRef .tc main_v12)) := by
  after_results_simp
  rfl

theorem stretch1_v16 (V0 : Valuation τ sig (Elt Ideal)) :
    StableHlo.after hostOps1 V0 (Proc.devRef .tc main_v16) = row128 (V0 (Proc.devRef .tc main_arg7)) := by
  after_results_simp
  rfl

theorem stretch2_v24 (V0 : Valuation τ sig (Elt Ideal)) :
    StableHlo.after hostOps2 V0 (Proc.devRef .tc main_v24) = Host.gather (α := Ideal .f32) gather_S100000x128_S1600000x1_S1600000x128_1_0_n_n_0_1_1128 (V0 (Proc.devRef .tc main_v17)) (colOf (wrapEnds (V0 (Proc.devRef .tc main_v1)))) := by
  after_results_simp
  rfl

theorem stretch2_v25 (V0 : Valuation τ sig (Elt Ideal)) :
    StableHlo.after hostOps2 V0 (Proc.devRef .tc main_v25) = row128 (V0 (Proc.devRef .tc main_arg9)) := by
  after_results_simp
  rfl

theorem stretch3_v29 (V0 : Valuation τ sig (Elt Ideal)) :
    StableHlo.after hostOps3 V0 (Proc.devRef .tc main_v29) = Host.scatterAdd (F := Ideal) (φ := .f32) scatter_S100000x128_S1600000x1_S1600000x128_1_0_0_1 zeros128 (colOf (V0 (Proc.devRef .tc main_v3))) (V0 (Proc.devRef .tc main_v26)) := by
  after_results_simp
  rfl

theorem stretch3_v30 (V0 : Valuation τ sig (Elt Ideal)) :
    StableHlo.after hostOps3 V0 (Proc.devRef .tc main_v30) = row128 (V0 (Proc.devRef .tc main_arg11)) := by
  after_results_simp
  rfl

theorem stretch4_v38 (V0 : Valuation τ sig (Elt Ideal)) :
    StableHlo.after hostOps4 V0 (Proc.devRef .tc main_v38) = Host.gather (α := Ideal .f32) gather_S100000x128_S1600000x1_S1600000x128_1_0_n_n_0_1_1128 (V0 (Proc.devRef .tc main_v31)) (colOf (wrapEnds (V0 (Proc.devRef .tc main_v1)))) := by
  after_results_simp
  rfl

theorem stretch4_v39 (V0 : Valuation τ sig (Elt Ideal)) :
    StableHlo.after hostOps4 V0 (Proc.devRef .tc main_v39) = row128 (V0 (Proc.devRef .tc main_arg13)) := by
  after_results_simp
  rfl

theorem stretch5_v43 (V0 : Valuation τ sig (Elt Ideal)) :
    StableHlo.after hostOps5 V0 (Proc.devRef .tc main_v43) = Host.scatterAdd (F := Ideal) (φ := .f32) scatter_S100000x128_S1600000x1_S1600000x128_1_0_0_1 zeros128 (colOf (V0 (Proc.devRef .tc main_v3))) (V0 (Proc.devRef .tc main_v40)) := by
  after_results_simp
  rfl

theorem stretch5_v44 (V0 : Valuation τ sig (Elt Ideal)) :
    StableHlo.after hostOps5 V0 (Proc.devRef .tc main_v44) = row128 (V0 (Proc.devRef .tc main_arg15)) := by
  after_results_simp
  rfl

theorem stretch6_v60 (V0 : Valuation τ sig (Elt Ideal)) :
    StableHlo.after hostOps6 V0 (Proc.devRef .tc main_v60) = pooled (V0 (Proc.devRef .tc main_v45)) (V0 (Proc.devRef .tc main_arg3)) (V0 (Proc.devRef .tc main_arg16)) (V0 (Proc.devRef .tc main_arg17)) := by
  after_results_simp
  rfl

variable (m : (ℓ : Loc nD τ sig) → Buf (Elt Ideal) ℓ) (ρ : Dev nD → PrngReg) (c : Dev nD)

/-! ## The regions' arrays, assumed here -/

variable (hf0 : ∀ (V : (c : Dev nD) → (b : Ref sig .tc) → Buf (Elt Ideal) ((c : Thread nD τ).loc b)) (c : Dev nD),
    (dat0 (F := Ideal) V c).arrAt 4 cfg0.N = Cert.Spec.edgeRows (V c main_v10) (V c main_arg2) (V c main_arg4) (V c main_v11))
variable (hf1 : ∀ (V : (c : Dev nD) → (b : Ref sig .tc) → Buf (Elt Ideal) ((c : Thread nD τ).loc b)) (c : Dev nD),
    (dat1 (F := Ideal) V c).arrAt 4 cfg1.N = Cert.Spec.nodeRows (V c main_v15) (V c main_arg0) (V c main_arg6) (V c main_v16))
variable (hf2 : ∀ (V : (c : Dev nD) → (b : Ref sig .tc) → Buf (Elt Ideal) ((c : Thread nD τ).loc b)) (c : Dev nD),
    (dat2 (F := Ideal) V c).arrAt 4 cfg2.N = Cert.Spec.edgeRows (V c main_v24) (V c main_arg2) (V c main_arg8) (V c main_v25))
variable (hf3 : ∀ (V : (c : Dev nD) → (b : Ref sig .tc) → Buf (Elt Ideal) ((c : Thread nD τ).loc b)) (c : Dev nD),
    (dat3 (F := Ideal) V c).arrAt 4 cfg3.N = Cert.Spec.nodeRows (V c main_v29) (V c main_v17) (V c main_arg10) (V c main_v30))
variable (hf4 : ∀ (V : (c : Dev nD) → (b : Ref sig .tc) → Buf (Elt Ideal) ((c : Thread nD τ).loc b)) (c : Dev nD),
    (dat4 (F := Ideal) V c).arrAt 4 cfg4.N = Cert.Spec.edgeRows (V c main_v38) (V c main_arg2) (V c main_arg12) (V c main_v39))
variable (hf5 : ∀ (V : (c : Dev nD) → (b : Ref sig .tc) → Buf (Elt Ideal) ((c : Thread nD τ).loc b)) (c : Dev nD),
    (dat5 (F := Ideal) V c).arrAt 4 cfg5.N = Cert.Spec.nodeRows (V c main_v43) (V c main_v31) (V c main_arg14) (V c main_v44))

/-! ## The first stretch: the edge list's two rows, the first gather, the first bias row -/

theorem W1_v10 : W1 m ρ c (Proc.devRef .tc main_v10) = gat1 (m ((c : Thread nD τ).loc main_arg0)) (m ((c : Thread nD τ).loc main_arg1)) := stretch0_v10 (W0 m ρ c)
theorem W1_v11 : W1 m ρ c (Proc.devRef .tc main_v11) = row7 (m ((c : Thread nD τ).loc main_arg5)) := stretch0_v11 (W0 m ρ c)
theorem W1_v1 : W1 m ρ c (Proc.devRef .tc main_v1) = srcEnds (m ((c : Thread nD τ).loc main_arg1)) := stretch0_v1 (W0 m ρ c)
theorem W1_v3 : W1 m ρ c (Proc.devRef .tc main_v3) = dstEnds (m ((c : Thread nD τ).loc main_arg1)) := stretch0_v3 (W0 m ρ c)

/-! ## Layer 1 -/
theorem W1_arg2 : W1 m ρ c (Proc.devRef .tc main_arg2) = (m ((c : Thread nD τ).loc main_arg2)) :=
  (host_thru0 m ρ c main_arg2 (by decide)).trans (rfl)
theorem W1_arg4 : W1 m ρ c (Proc.devRef .tc main_arg4) = (m ((c : Thread nD τ).loc main_arg4)) :=
  (host_thru0 m ρ c main_arg4 (by decide)).trans (rfl)

include hf0 in
/-- Region 0 leaves the first layer's edge messages. -/
theorem W2_v12 : W2 m ρ c (Proc.devRef .tc main_v12) = msg1 (m ((c : Thread nD τ).loc main_arg0)) (m ((c : Thread nD τ).loc main_arg1)) (m ((c : Thread nD τ).loc main_arg2)) (m ((c : Thread nD τ).loc main_arg4)) (m ((c : Thread nD τ).loc main_arg5)) := by
  refine (W2_arr m ρ c 4).trans ((hf0 (V1 m ρ) c).trans ?_)
  show Cert.Spec.edgeRows (W1 m ρ c (Proc.devRef .tc main_v10)) (W1 m ρ c (Proc.devRef .tc main_arg2)) (W1 m ρ c (Proc.devRef .tc main_arg4)) (W1 m ρ c (Proc.devRef .tc main_v11)) = _
  rw [W1_v10 m ρ c, W1_arg2 m ρ c, W1_arg4 m ρ c, W1_v11 m ρ c]
  rfl

theorem W2_v3 : W2 m ρ c (Proc.devRef .tc main_v3) = dstEnds (m ((c : Thread nD τ).loc main_arg1)) :=
  (region_thru0 m ρ c main_v3 (by decide)).trans (W1_v3 m ρ c)
theorem W2_arg7 : W2 m ρ c (Proc.devRef .tc main_arg7) = (m ((c : Thread nD τ).loc main_arg7)) :=
  (region_thru0 m ρ c main_arg7 (by decide)).trans ((host_thru0 m ρ c main_arg7 (by decide)).trans (rfl))

include hf0 in
/-- The first layer's messages summed into their target nodes. -/
theorem W3_v15 : W3 m ρ c (Proc.devRef .tc main_v15) = agg1 (m ((c : Thread nD τ).loc main_arg0)) (m ((c : Thread nD τ).loc main_arg1)) (m ((c : Thread nD τ).loc main_arg2)) (m ((c : Thread nD τ).loc main_arg4)) (m ((c : Thread nD τ).loc main_arg5)) := by
  refine (stretch1_v15 (W2 m ρ c)).trans ?_
  rw [W2_v3 m ρ c, W2_v12 m ρ c hf0]
  rfl

theorem W3_v16 : W3 m ρ c (Proc.devRef .tc main_v16) = row128 (m ((c : Thread nD τ).loc main_arg7)) := by
  refine (stretch1_v16 (W2 m ρ c)).trans ?_
  rw [W2_arg7 m ρ c]
theorem W3_arg0 : W3 m ρ c (Proc.devRef .tc main_arg0) = (m ((c : Thread nD τ).loc main_arg0)) :=
  (host_thru1 m ρ c main_arg0 (by decide)).trans ((region_thru0 m ρ c main_arg0 (by decide)).trans ((host_thru0 m ρ c main_arg0 (by decide)).trans (rfl)))
theorem W3_arg6 : W3 m ρ c (Proc.devRef .tc main_arg6) = (m ((c : Thread nD τ).loc main_arg6)) :=
  (host_thru1 m ρ c main_arg6 (by decide)).trans ((region_thru0 m ρ c main_arg6 (by decide)).trans ((host_thru0 m ρ c main_arg6 (by decide)).trans (rfl)))

include hf0 hf1 in
/-- Region 1 leaves the first layer's node features. -/
theorem W4_v17 : W4 m ρ c (Proc.devRef .tc main_v17) = feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_arr m ρ c 4).trans ((hf1 (V3 m ρ) c).trans ?_)
  show Cert.Spec.nodeRows (W3 m ρ c (Proc.devRef .tc main_v15)) (W3 m ρ c (Proc.devRef .tc main_arg0)) (W3 m ρ c (Proc.devRef .tc main_arg6)) (W3 m ρ c (Proc.devRef .tc main_v16)) = _
  rw [W3_v15 m ρ c hf0, W3_arg0 m ρ c, W3_arg6 m ρ c, W3_v16 m ρ c]
  rfl

/-! ## Layer 2 -/

theorem W4_v1 : W4 m ρ c (Proc.devRef .tc main_v1) = srcEnds (m ((c : Thread nD τ).loc main_arg1)) :=
  (region_thru1 m ρ c main_v1 (by decide)).trans ((host_thru1 m ρ c main_v1 (by decide)).trans ((region_thru0 m ρ c main_v1 (by decide)).trans (W1_v1 m ρ c)))
theorem W4_arg9 : W4 m ρ c (Proc.devRef .tc main_arg9) = (m ((c : Thread nD τ).loc main_arg9)) :=
  (region_thru1 m ρ c main_arg9 (by decide)).trans ((host_thru1 m ρ c main_arg9 (by decide)).trans ((region_thru0 m ρ c main_arg9 (by decide)).trans ((host_thru0 m ρ c main_arg9 (by decide)).trans (rfl))))

include hf0 hf1 in
/-- The gather of the previous layer's features at the edges' source nodes. -/
theorem W5_v24 : W5 m ρ c (Proc.devRef .tc main_v24) = gatH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) := by
  refine (stretch2_v24 (W4 m ρ c)).trans ?_
  rw [W4_v1 m ρ c, W4_v17 m ρ c hf0 hf1]
  rfl

theorem W5_v25 : W5 m ρ c (Proc.devRef .tc main_v25) = row128 (m ((c : Thread nD τ).loc main_arg9)) := by
  refine (stretch2_v25 (W4 m ρ c)).trans ?_
  rw [W4_arg9 m ρ c]
theorem W5_arg2 : W5 m ρ c (Proc.devRef .tc main_arg2) = (m ((c : Thread nD τ).loc main_arg2)) :=
  (host_thru2 m ρ c main_arg2 (by decide)).trans ((region_thru1 m ρ c main_arg2 (by decide)).trans ((host_thru1 m ρ c main_arg2 (by decide)).trans ((region_thru0 m ρ c main_arg2 (by decide)).trans ((host_thru0 m ρ c main_arg2 (by decide)).trans (rfl)))))
theorem W5_arg8 : W5 m ρ c (Proc.devRef .tc main_arg8) = (m ((c : Thread nD τ).loc main_arg8)) :=
  (host_thru2 m ρ c main_arg8 (by decide)).trans ((region_thru1 m ρ c main_arg8 (by decide)).trans ((host_thru1 m ρ c main_arg8 (by decide)).trans ((region_thru0 m ρ c main_arg8 (by decide)).trans ((host_thru0 m ρ c main_arg8 (by decide)).trans (rfl)))))

include hf0 hf1 hf2 in
/-- Region 2 leaves the layer's edge messages. -/
theorem W6_v26 : W6 m ρ c (Proc.devRef .tc main_v26) = msgH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) := by
  refine (W6_arr m ρ c 4).trans ((hf2 (V5 m ρ) c).trans ?_)
  show Cert.Spec.edgeRows (W5 m ρ c (Proc.devRef .tc main_v24)) (W5 m ρ c (Proc.devRef .tc main_arg2)) (W5 m ρ c (Proc.devRef .tc main_arg8)) (W5 m ρ c (Proc.devRef .tc main_v25)) = _
  rw [W5_v24 m ρ c hf0 hf1, W5_arg2 m ρ c, W5_arg8 m ρ c, W5_v25 m ρ c]
  rfl

theorem W6_v3 : W6 m ρ c (Proc.devRef .tc main_v3) = dstEnds (m ((c : Thread nD τ).loc main_arg1)) :=
  (region_thru2 m ρ c main_v3 (by decide)).trans ((host_thru2 m ρ c main_v3 (by decide)).trans ((region_thru1 m ρ c main_v3 (by decide)).trans ((host_thru1 m ρ c main_v3 (by decide)).trans ((region_thru0 m ρ c main_v3 (by decide)).trans (W1_v3 m ρ c)))))
theorem W6_arg11 : W6 m ρ c (Proc.devRef .tc main_arg11) = (m ((c : Thread nD τ).loc main_arg11)) :=
  (region_thru2 m ρ c main_arg11 (by decide)).trans ((host_thru2 m ρ c main_arg11 (by decide)).trans ((region_thru1 m ρ c main_arg11 (by decide)).trans ((host_thru1 m ρ c main_arg11 (by decide)).trans ((region_thru0 m ρ c main_arg11 (by decide)).trans ((host_thru0 m ρ c main_arg11 (by decide)).trans (rfl))))))

include hf0 hf1 hf2 in
/-- The layer's messages summed into their target nodes. -/
theorem W7_v29 : W7 m ρ c (Proc.devRef .tc main_v29) = aggH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) := by
  refine (stretch3_v29 (W6 m ρ c)).trans ?_
  rw [W6_v3 m ρ c, W6_v26 m ρ c hf0 hf1 hf2]
  rfl

theorem W7_v30 : W7 m ρ c (Proc.devRef .tc main_v30) = row128 (m ((c : Thread nD τ).loc main_arg11)) := by
  refine (stretch3_v30 (W6 m ρ c)).trans ?_
  rw [W6_arg11 m ρ c]

include hf0 hf1 in
/-- The previous layer's features are still there when the node region is entered. -/
theorem W7_v17 : W7 m ρ c (Proc.devRef .tc main_v17) = (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  (host_thru3 m ρ c main_v17 (by decide)).trans ((region_thru2 m ρ c main_v17 (by decide)).trans ((host_thru2 m ρ c main_v17 (by decide)).trans (W4_v17 m ρ c hf0 hf1)))
theorem W7_arg10 : W7 m ρ c (Proc.devRef .tc main_arg10) = (m ((c : Thread nD τ).loc main_arg10)) :=
  (host_thru3 m ρ c main_arg10 (by decide)).trans ((region_thru2 m ρ c main_arg10 (by decide)).trans ((host_thru2 m ρ c main_arg10 (by decide)).trans ((region_thru1 m ρ c main_arg10 (by decide)).trans ((host_thru1 m ρ c main_arg10 (by decide)).trans ((region_thru0 m ρ c main_arg10 (by decide)).trans ((host_thru0 m ρ c main_arg10 (by decide)).trans (rfl)))))))

include hf0 hf1 hf2 hf3 in
/-- Region 3 leaves the layer's node features. -/
theorem W8_v31 : W8 m ρ c (Proc.devRef .tc main_v31) = featH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) := by
  refine (W8_arr m ρ c 4).trans ((hf3 (V7 m ρ) c).trans ?_)
  show Cert.Spec.nodeRows (W7 m ρ c (Proc.devRef .tc main_v29)) (W7 m ρ c (Proc.devRef .tc main_v17)) (W7 m ρ c (Proc.devRef .tc main_arg10)) (W7 m ρ c (Proc.devRef .tc main_v30)) = _
  rw [W7_v29 m ρ c hf0 hf1 hf2, W7_v17 m ρ c hf0 hf1, W7_arg10 m ρ c, W7_v30 m ρ c]
  rfl

/-! ## Layer 3 -/

theorem W8_v1 : W8 m ρ c (Proc.devRef .tc main_v1) = srcEnds (m ((c : Thread nD τ).loc main_arg1)) :=
  (region_thru3 m ρ c main_v1 (by decide)).trans ((host_thru3 m ρ c main_v1 (by decide)).trans ((region_thru2 m ρ c main_v1 (by decide)).trans ((host_thru2 m ρ c main_v1 (by decide)).trans ((region_thru1 m ρ c main_v1 (by decide)).trans ((host_thru1 m ρ c main_v1 (by decide)).trans ((region_thru0 m ρ c main_v1 (by decide)).trans (W1_v1 m ρ c)))))))
theorem W8_arg13 : W8 m ρ c (Proc.devRef .tc main_arg13) = (m ((c : Thread nD τ).loc main_arg13)) :=
  (region_thru3 m ρ c main_arg13 (by decide)).trans ((host_thru3 m ρ c main_arg13 (by decide)).trans ((region_thru2 m ρ c main_arg13 (by decide)).trans ((host_thru2 m ρ c main_arg13 (by decide)).trans ((region_thru1 m ρ c main_arg13 (by decide)).trans ((host_thru1 m ρ c main_arg13 (by decide)).trans ((region_thru0 m ρ c main_arg13 (by decide)).trans ((host_thru0 m ρ c main_arg13 (by decide)).trans (rfl))))))))

include hf0 hf1 hf2 hf3 in
/-- The gather of the previous layer's features at the edges' source nodes. -/
theorem W9_v38 : W9 m ρ c (Proc.devRef .tc main_v38) = gatH (featH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg1)) := by
  refine (stretch4_v38 (W8 m ρ c)).trans ?_
  rw [W8_v1 m ρ c, W8_v31 m ρ c hf0 hf1 hf2 hf3]
  rfl

theorem W9_v39 : W9 m ρ c (Proc.devRef .tc main_v39) = row128 (m ((c : Thread nD τ).loc main_arg13)) := by
  refine (stretch4_v39 (W8 m ρ c)).trans ?_
  rw [W8_arg13 m ρ c]
theorem W9_arg2 : W9 m ρ c (Proc.devRef .tc main_arg2) = (m ((c : Thread nD τ).loc main_arg2)) :=
  (host_thru4 m ρ c main_arg2 (by decide)).trans ((region_thru3 m ρ c main_arg2 (by decide)).trans ((host_thru3 m ρ c main_arg2 (by decide)).trans ((region_thru2 m ρ c main_arg2 (by decide)).trans ((host_thru2 m ρ c main_arg2 (by decide)).trans ((region_thru1 m ρ c main_arg2 (by decide)).trans ((host_thru1 m ρ c main_arg2 (by decide)).trans ((region_thru0 m ρ c main_arg2 (by decide)).trans ((host_thru0 m ρ c main_arg2 (by decide)).trans (rfl)))))))))
theorem W9_arg12 : W9 m ρ c (Proc.devRef .tc main_arg12) = (m ((c : Thread nD τ).loc main_arg12)) :=
  (host_thru4 m ρ c main_arg12 (by decide)).trans ((region_thru3 m ρ c main_arg12 (by decide)).trans ((host_thru3 m ρ c main_arg12 (by decide)).trans ((region_thru2 m ρ c main_arg12 (by decide)).trans ((host_thru2 m ρ c main_arg12 (by decide)).trans ((region_thru1 m ρ c main_arg12 (by decide)).trans ((host_thru1 m ρ c main_arg12 (by decide)).trans ((region_thru0 m ρ c main_arg12 (by decide)).trans ((host_thru0 m ρ c main_arg12 (by decide)).trans (rfl)))))))))

include hf0 hf1 hf2 hf3 hf4 in
/-- Region 4 leaves the layer's edge messages. -/
theorem W10_v40 : W10 m ρ c (Proc.devRef .tc main_v40) = msgH (featH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13)) := by
  refine (W10_arr m ρ c 4).trans ((hf4 (V9 m ρ) c).trans ?_)
  show Cert.Spec.edgeRows (W9 m ρ c (Proc.devRef .tc main_v38)) (W9 m ρ c (Proc.devRef .tc main_arg2)) (W9 m ρ c (Proc.devRef .tc main_arg12)) (W9 m ρ c (Proc.devRef .tc main_v39)) = _
  rw [W9_v38 m ρ c hf0 hf1 hf2 hf3, W9_arg2 m ρ c, W9_arg12 m ρ c, W9_v39 m ρ c]
  rfl

theorem W10_v3 : W10 m ρ c (Proc.devRef .tc main_v3) = dstEnds (m ((c : Thread nD τ).loc main_arg1)) :=
  (region_thru4 m ρ c main_v3 (by decide)).trans ((host_thru4 m ρ c main_v3 (by decide)).trans ((region_thru3 m ρ c main_v3 (by decide)).trans ((host_thru3 m ρ c main_v3 (by decide)).trans ((region_thru2 m ρ c main_v3 (by decide)).trans ((host_thru2 m ρ c main_v3 (by decide)).trans ((region_thru1 m ρ c main_v3 (by decide)).trans ((host_thru1 m ρ c main_v3 (by decide)).trans ((region_thru0 m ρ c main_v3 (by decide)).trans (W1_v3 m ρ c)))))))))
theorem W10_arg15 : W10 m ρ c (Proc.devRef .tc main_arg15) = (m ((c : Thread nD τ).loc main_arg15)) :=
  (region_thru4 m ρ c main_arg15 (by decide)).trans ((host_thru4 m ρ c main_arg15 (by decide)).trans ((region_thru3 m ρ c main_arg15 (by decide)).trans ((host_thru3 m ρ c main_arg15 (by decide)).trans ((region_thru2 m ρ c main_arg15 (by decide)).trans ((host_thru2 m ρ c main_arg15 (by decide)).trans ((region_thru1 m ρ c main_arg15 (by decide)).trans ((host_thru1 m ρ c main_arg15 (by decide)).trans ((region_thru0 m ρ c main_arg15 (by decide)).trans ((host_thru0 m ρ c main_arg15 (by decide)).trans (rfl))))))))))

include hf0 hf1 hf2 hf3 hf4 in
/-- The layer's messages summed into their target nodes. -/
theorem W11_v43 : W11 m ρ c (Proc.devRef .tc main_v43) = aggH (featH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13)) := by
  refine (stretch5_v43 (W10 m ρ c)).trans ?_
  rw [W10_v3 m ρ c, W10_v40 m ρ c hf0 hf1 hf2 hf3 hf4]
  rfl

theorem W11_v44 : W11 m ρ c (Proc.devRef .tc main_v44) = row128 (m ((c : Thread nD τ).loc main_arg15)) := by
  refine (stretch5_v44 (W10 m ρ c)).trans ?_
  rw [W10_arg15 m ρ c]

include hf0 hf1 hf2 hf3 in
/-- The previous layer's features are still there when the node region is entered. -/
theorem W11_v31 : W11 m ρ c (Proc.devRef .tc main_v31) = (featH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) :=
  (host_thru5 m ρ c main_v31 (by decide)).trans ((region_thru4 m ρ c main_v31 (by decide)).trans ((host_thru4 m ρ c main_v31 (by decide)).trans (W8_v31 m ρ c hf0 hf1 hf2 hf3)))
theorem W11_arg14 : W11 m ρ c (Proc.devRef .tc main_arg14) = (m ((c : Thread nD τ).loc main_arg14)) :=
  (host_thru5 m ρ c main_arg14 (by decide)).trans ((region_thru4 m ρ c main_arg14 (by decide)).trans ((host_thru4 m ρ c main_arg14 (by decide)).trans ((region_thru3 m ρ c main_arg14 (by decide)).trans ((host_thru3 m ρ c main_arg14 (by decide)).trans ((region_thru2 m ρ c main_arg14 (by decide)).trans ((host_thru2 m ρ c main_arg14 (by decide)).trans ((region_thru1 m ρ c main_arg14 (by decide)).trans ((host_thru1 m ρ c main_arg14 (by decide)).trans ((region_thru0 m ρ c main_arg14 (by decide)).trans ((host_thru0 m ρ c main_arg14 (by decide)).trans (rfl)))))))))))

include hf0 hf1 hf2 hf3 hf4 hf5 in
/-- Region 5 leaves the layer's node features. -/
theorem W12_v45 : W12 m ρ c (Proc.devRef .tc main_v45) = featH (featH (feat1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg2)) (m ((c : Thread nD τ).loc main_arg12)) (m ((c : Thread nD τ).loc main_arg13)) (m ((c : Thread nD τ).loc main_arg14)) (m ((c : Thread nD τ).loc main_arg15)) := by
  refine (W12_arr m ρ c 4).trans ((hf5 (V11 m ρ) c).trans ?_)
  show Cert.Spec.nodeRows (W11 m ρ c (Proc.devRef .tc main_v43)) (W11 m ρ c (Proc.devRef .tc main_v31)) (W11 m ρ c (Proc.devRef .tc main_arg14)) (W11 m ρ c (Proc.devRef .tc main_v44)) = _
  rw [W11_v43 m ρ c hf0 hf1 hf2 hf3 hf4, W11_v31 m ρ c hf0 hf1 hf2 hf3, W11_arg14 m ρ c, W11_v44 m ρ c]
  rfl

/-! ## The tail -/
theorem W12_arg3 : W12 m ρ c (Proc.devRef .tc main_arg3) = (m ((c : Thread nD τ).loc main_arg3)) :=
  (region_thru5 m ρ c main_arg3 (by decide)).trans ((host_thru5 m ρ c main_arg3 (by decide)).trans ((region_thru4 m ρ c main_arg3 (by decide)).trans ((host_thru4 m ρ c main_arg3 (by decide)).trans ((region_thru3 m ρ c main_arg3 (by decide)).trans ((host_thru3 m ρ c main_arg3 (by decide)).trans ((region_thru2 m ρ c main_arg3 (by decide)).trans ((host_thru2 m ρ c main_arg3 (by decide)).trans ((region_thru1 m ρ c main_arg3 (by decide)).trans ((host_thru1 m ρ c main_arg3 (by decide)).trans ((region_thru0 m ρ c main_arg3 (by decide)).trans ((host_thru0 m ρ c main_arg3 (by decide)).trans (rfl))))))))))))
theorem W12_arg16 : W12 m ρ c (Proc.devRef .tc main_arg16) = (m ((c : Thread nD τ).loc main_arg16)) :=
  (region_thru5 m ρ c main_arg16 (by decide)).trans ((host_thru5 m ρ c main_arg16 (by decide)).trans ((region_thru4 m ρ c main_arg16 (by decide)).trans ((host_thru4 m ρ c main_arg16 (by decide)).trans ((region_thru3 m ρ c main_arg16 (by decide)).trans ((host_thru3 m ρ c main_arg16 (by decide)).trans ((region_thru2 m ρ c main_arg16 (by decide)).trans ((host_thru2 m ρ c main_arg16 (by decide)).trans ((region_thru1 m ρ c main_arg16 (by decide)).trans ((host_thru1 m ρ c main_arg16 (by decide)).trans ((region_thru0 m ρ c main_arg16 (by decide)).trans ((host_thru0 m ρ c main_arg16 (by decide)).trans (rfl))))))))))))
theorem W12_arg17 : W12 m ρ c (Proc.devRef .tc main_arg17) = (m ((c : Thread nD τ).loc main_arg17)) :=
  (region_thru5 m ρ c main_arg17 (by decide)).trans ((host_thru5 m ρ c main_arg17 (by decide)).trans ((region_thru4 m ρ c main_arg17 (by decide)).trans ((host_thru4 m ρ c main_arg17 (by decide)).trans ((region_thru3 m ρ c main_arg17 (by decide)).trans ((host_thru3 m ρ c main_arg17 (by decide)).trans ((region_thru2 m ρ c main_arg17 (by decide)).trans ((host_thru2 m ρ c main_arg17 (by decide)).trans ((region_thru1 m ρ c main_arg17 (by decide)).trans ((host_thru1 m ρ c main_arg17 (by decide)).trans ((region_thru0 m ρ c main_arg17 (by decide)).trans ((host_thru0 m ρ c main_arg17 (by decide)).trans (rfl))))))))))))

include hf0 hf1 hf2 hf3 hf4 hf5 in
/-- THE RESULT: the last boundary's contents of the result buffer are the network of the launch contents of the
    argument arrays. -/
theorem W13_v60 : W13 m ρ c (Proc.devRef .tc main_v60)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (stretch6_v60 (W12 m ρ c)).trans ?_
  rw [W12_v45 m ρ c hf0 hf1 hf2 hf3 hf4 hf5, W12_arg3 m ρ c, W12_arg16 m ρ c, W12_arg17 m ρ c]
  rfl

end Cert.KernelIdeal.RunValue

end
-- ==== Proof.EdgeCommon.lean ====
/-
  Two small facts that the three edge-message regions share.

  An edge message adds, to every row of a block of gathered source rows, the edge's single attribute times a
  weight row, plus a bias row. The attribute lives in a one-column array, so inside a block it is spread over
  all the columns; read at a position, that spread gives back the attribute of the position's row. The second
  fact only says that a whole-buffer access starts at offset zero on both axes.
-/
import Idealize.ShloMosaic.Lib.Pipeline.Value
import Idealize.ShloMosaic.Lib.ValueIdx

namespace Cert.KernelIdeal.RegionValue

open Idealize.ShloMosaic Idealize.ShloMosaic.ValueIdx

/-- A one-column array spread over `b` columns reads, at row `p` and column `c`, the operand's entry of
    row `p`: the row coordinate is kept (unless there is only one row, and then it is `0` anyway), the
    column coordinate is sent to the operand's only column. -/
theorem edge_colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The offsets `(0, 0)` of an access to a whole rank-2 buffer are the zero function. -/
theorem edge_hz : (![0, 0] : Fin 2 → Nat) = fun _ => 0 := funext fun a => by fin_cases a <;> rfl

end Cert.KernelIdeal.RegionValue
-- ==== Proof.Edge0.lean ====
/-
  Region 0: the edge messages of one layer, as one whole-array function.

  The region walks over the 1600000 edges in 200 blocks of 8000 consecutive rows. At block `t` it holds rows
  `8000 t … 8000 t + 7999` of the gathered source rows (`[1600000, 7]`) and of the edge attributes
  (`[1600000, 1]`), together with the whole weight row and the whole bias row (`[1, 7]` each, the same at every
  block), and writes back rows `8000 t … 8000 t + 7999` of the result. Entry `(p, q)` of what it writes is

      max (src[p, q] + (attr[p, 0] * w[0, q] + b[0, q])) 0

  of the block's rows, so entry `(8000 t + p, q)` of the result depends only on row `8000 t + p` of the two
  edge arrays and on column `q` of the two rows. Every row `r` of the result lies in exactly one block, the one
  numbered `r / 8000`, so after the last block the result array is `Cert.Spec.edgeRows` of the four input arrays.
  All of this is stated at an arbitrary contents `V` of the buffers when the region is entered.
-/
import proofs.«117926_j9294309228817_1_alg».proof.Proof.Gen.KernelIdeal.Frame
import proofs.«117926_j9294309228817_1_alg».proof.Proof.Spec
import proofs.«117926_j9294309228817_1_alg».proof.Proof.EdgeCommon
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-! ## One entry of what the body stores -/

/-- The body's stored value at row `p`, column `q` of a block. The attribute column `v0` is spread over the
    columns and the weight row `v1` and bias row `v5` over the rows; the two casts keep their shapes and are the
    identity; the product, the two sums and the maximum act entry by entry; and the splat it clamps against is the
    zero word, which is the real number `0`. -/
theorem edge0_pay_apply (v0 : Vec Ideal S8000x1 .f32) (v1 v5 : Vec Ideal S1x7 .f32) (v9 : Vec Ideal S8000x7 .f32)
    (p : Fin 8000) (q : Fin 7) :
    k0_pay1 v0 v1 v5 v9 (ix2 p q)
      = max (v9 (ix2 p q) + (v0 (ix2 p 0) * v1 (ix2 0 q) + v5 (ix2 0 q))) 0 := by
  unfold k0_pay1
  rw [maximumf_apply, addf_apply, addf_apply, mulf_apply, broadcast_apply, shapeCast_self, shapeCast_self]
  rw [edge_colBroadcast_apply, broadcastTo_1b_ab_apply, broadcastTo_1b_ab_apply]
  show max _ (Ideal.ofBits .f32 0x00000000#32) = _
  rw [Ideal.ofBits_zero_f32]

/-! ## Which block each window holds at a grid point -/

/-- The block numbers at grid point `t`, decided over the 200 points: the source rows, the attributes and the
    result are at row block `t` (column block `0`); the weight row and the bias row are always at block `(0, 0)`. -/
theorem edge0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The four input blocks, read off their arrays

An element of a block sits in its array, on each axis, at the block number times the block's extent plus its own
coordinate. -/

/-- Entry `(p, q)` of the source-row block at point `t` is entry `(8000 t + p, q)` of the source-row array. -/
theorem edge0_src_apply (c : Dev nD) (t : Fin cfg0.N) (p : Fin 8000) (q : Fin 7) (r : Fin 1600000)
    (hr : r.val = 8000 * t.val + p.val) :
    (iblk0 V c 0 t : Vec Ideal S8000x7 .f32) (ix2 p q) = (V c main_v10 : S1600000x7.Idx → EReal) (ix2 r q) := by
  obtain ⟨e0, e1, -⟩ := edge0_idx t
  show V c main_v10 (((cfg0.win 0).blk t).view.emb (ix2 p q)) = V c main_v10 (ix2 r q)
  refine congrArg _ ?_
  funext a; apply Fin.ext
  match a with
  | ⟨0, _⟩ => show win0_0.index t (0 : Fin 2) * 8000 + 1 * p.val = r.val; rw [e0, hr]; omega
  | ⟨1, _⟩ => show win0_0.index t (1 : Fin 2) * 7 + 1 * q.val = q.val; rw [e1]; omega

/-- Entry `(p, 0)` of the attribute block at point `t` is entry `(8000 t + p, 0)` of the attribute array. -/
theorem edge0_attr_apply (c : Dev nD) (t : Fin cfg0.N) (p : Fin 8000) (r : Fin 1600000)
    (hr : r.val = 8000 * t.val + p.val) :
    (iblk0 V c 1 t : Vec Ideal S8000x1 .f32) (ix2 p 0) = (V c main_arg2 : S1600000x1.Idx → EReal) (ix2 r 0) := by
  obtain ⟨-, -, e0, e1, -⟩ := edge0_idx t
  show V c main_arg2 (((cfg0.win 1).blk t).view.emb (ix2 p 0)) = V c main_arg2 (ix2 r 0)
  refine congrArg _ ?_
  funext a; apply Fin.ext
  match a with
  | ⟨0, _⟩ => show win0_1.index t (0 : Fin 2) * 8000 + 1 * p.val = r.val; rw [e0, hr]; omega
  | ⟨1, _⟩ => show win0_1.index t (1 : Fin 2) * 1 + 1 * 0 = 0; rw [e1]

/-- The weight-row block at every point is the whole weight row. -/
theorem edge0_weight_eq (c : Dev nD) (t : Fin cfg0.N) :
    (iblk0 V c 2 t : Vec Ideal S1x7 .f32) = (V c main_arg4 : S1x7.Idx → EReal) := by
  obtain ⟨-, -, -, -, e0, e1, -⟩ := edge0_idx t
  funext y
  show V c main_arg4 (((cfg0.win 2).blk t).view.emb y) = V c main_arg4 y
  refine congrArg _ ?_
  funext a; apply Fin.ext
  match a with
  | ⟨0, _⟩ => show win0_2.index t (0 : Fin 2) * 1 + 1 * (y 0).val = (y 0).val; rw [e0]; omega
  | ⟨1, _⟩ => show win0_2.index t (1 : Fin 2) * 7 + 1 * (y 1).val = (y 1).val; rw [e1]; omega

/-- The bias-row block at every point is the whole bias row. -/
theorem edge0_bias_eq (c : Dev nD) (t : Fin cfg0.N) :
    (iblk0 V c 3 t : Vec Ideal S1x7 .f32) = (V c main_v11 : S1x7.Idx → EReal) := by
  obtain ⟨-, -, -, -, -, -, e0, e1, -⟩ := edge0_idx t
  funext y
  show V c main_v11 (((cfg0.win 3).blk t).view.emb y) = V c main_v11 y
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 7 + 1 * (y 1).val = (y 1).val; rw [e1]; omega

/-! ## What one grid point writes back -/

/-- Over any four blocks and any four arrays: if the blocks' entries at `(p, q)`, `(p, 0)` are the arrays' entries
    at `(r, q)`, `(r, 0)` and the two row blocks are the two row arrays, then the stored value at `(p, q)` is the
    edge message at `(r, q)`. -/
theorem edge0_point_vars (x0 : Vec Ideal S8000x7 .f32) (x1 : Vec Ideal S8000x1 .f32) (x2 x3 : Vec Ideal S1x7 .f32)
    (A0 : FVec Ideal S1600000x7 .f32) (A1 : FVec Ideal S1600000x1 .f32) (A2 A3 : FVec Ideal S1x7 .f32)
    (p : Fin 8000) (q : Fin 7) (r : Fin 1600000)
    (h0 : x0 (ix2 p q) = A0 (ix2 r q)) (h1 : x1 (ix2 p 0) = A1 (ix2 r 0)) (h2 : x2 = A2) (h3 : x3 = A3) :
    k0_pay1 x1 x2 x3 x0 (ix2 p q) = Cert.Spec.edgeRows A0 A1 A2 A3 (ix2 r q) := by
  rw [edge0_pay_apply, Cert.Spec.edgeRows_apply, h0, h1, h2, h3]

/-- At point `t` the stored value at a block position is the edge message at the position's place in the result
    array, row `8000 t + p`, column `q`. -/
theorem edge0_point (c : Dev nD) (t : Fin cfg0.N) (j : S8000x7.Idx) :
    k0_pay1 (iblk0 V c 1 t) (iblk0 V c 2 t) (iblk0 V c 3 t) (iblk0 V c 0 t) j
      = Cert.Spec.edgeRows (V c main_v10) (V c main_arg2) (V c main_arg4) (V c main_v11)
          (((cfg0.win 4).blk t).view.emb j) := by
  obtain ⟨p, q, rfl⟩ : ∃ (p : Fin 8000) (q : Fin 7), j = ix2 p q := ⟨j 0, j 1, eq_ix2 j⟩
  have hN : cfg0.N = 200 := N_0
  have ht : t.val < 200 := hN ▸ t.isLt
  have hr : 8000 * t.val + p.val < 1600000 := by have := p.isLt; omega
  obtain ⟨-, -, -, -, -, -, -, -, e0, e1⟩ := edge0_idx t
  have hemb : ((cfg0.win 4).blk t).view.emb (ix2 p q) = ix2 (⟨8000 * t.val + p.val, hr⟩ : Fin 1600000) q := by
    funext a; apply Fin.ext
    match a with
    | ⟨0, _⟩ => show win0_4.index t (0 : Fin 2) * 8000 + 1 * p.val = 8000 * t.val + p.val; rw [e0]; omega
    | ⟨1, _⟩ => show win0_4.index t (1 : Fin 2) * 7 + 1 * q.val = q.val; rw [e1]; omega
  rw [hemb]
  exact edge0_point_vars _ _ _ _ _ _ _ _ p q ⟨8000 * t.val + p.val, hr⟩
    (edge0_src_apply V c t p q _ rfl) (edge0_attr_apply V c t p _ rfl) (edge0_weight_eq V c t) (edge0_bias_eq V c t)

/-- What point `t` writes back is block `t` of the edge messages of the four arrays as the region finds them:
    the body's one store covers its whole buffer, each load reads a whole input block, and the stored value is
    the edge message entry by entry. -/
theorem edge0_flushed_eq (c : Dev nD) (t : Fin cfg0.N) :
    (dat0 (F := Ideal) V c).flushed 4 t = ((cfg0.win 4).blk t).view.read (Elt Ideal)
      (Cert.Spec.edgeRows (V c main_v10) (V c main_arg2) (V c main_arg4) (V c main_v11)) := by
  show (cfg0.win 4).cut (grid0.coords t) ((dat0 (F := Ideal) V c).after 4 t) = _
  rw [after0_4]
  unfold out0_4
  rw [View.canon_unit_zero edge_hz]
  simp only [View.ld_unit_zero (S := S8000x7) edge_hz, View.ld_unit_zero (S := S8000x1) edge_hz,
    View.ld_unit_zero (S := S1x7) edge_hz]
  funext j
  exact edge0_point V c t j

/-! ## The blocks fill the result array -/

/-- An index of the result array is in point `t`'s block iff each coordinate is in the block's range on its axis. -/
theorem edge0_mem_blk (t : Fin cfg0.N) (i : S1600000x7.Idx) :
    i ∈ ((cfg0.win 4).blk t).view.set ↔ ∀ a : Fin 2, win0_4.index t a * S8000x7.size a ≤ (i a).val
      ∧ (i a).val < win0_4.index t a * S8000x7.size a + S8000x7.size a := by
  show i ∈ ((View.whole main_v12).slice (win0_4.rect t)).set ↔ _
  rw [View.set_slice_whole, Rect.mem_set_unit]
  exact Iff.rfl

/-- Every index `(r, q)` of the result array is in the block of point `r / 8000`, and every point writes back. -/
theorem edge0_cover (i : S1600000x7.Idx) :
    ∃ t : Fin cfg0.N, (cfg0.win 4).flush t = true ∧ i ∈ ((cfg0.win 4).blk t).view.set := by
  have hN : cfg0.N = 200 := N_0
  have hi0 : (i 0).val < 1600000 := (i 0).isLt
  have hi1 : (i 1).val < 7 := (i 1).isLt
  obtain ⟨t, htv⟩ : ∃ t : Fin cfg0.N, t.val = (i 0).val / 8000 := ⟨⟨(i 0).val / 8000, by rw [hN]; omega⟩, rfl⟩
  refine ⟨t, flush0_4 t, ?_⟩
  rw [edge0_mem_blk]
  obtain ⟨-, -, -, -, -, -, -, -, e0, e1⟩ := edge0_idx t
  intro a
  match a with
  | ⟨0, _⟩ =>
    show win0_4.index t (0 : Fin 2) * 8000 ≤ (i 0).val ∧ (i 0).val < win0_4.index t (0 : Fin 2) * 8000 + 8000
    rw [e0, htv]; omega
  | ⟨1, _⟩ =>
    show win0_4.index t (1 : Fin 2) * 7 ≤ (i 1).val ∧ (i 1).val < win0_4.index t (1 : Fin 2) * 7 + 7
    rw [e1]; omega

/-- After the region the result array holds the edge messages of the four input arrays as the region found them. -/
theorem final0 (c : Dev nD) : (dat0 (F := Ideal) V c).arrAt 4 cfg0.N
    = Cert.Spec.edgeRows (V c main_v10) (V c main_arg2) (V c main_arg4) (V c main_v11) :=
  (dat0 (F := Ideal) V c).arrAt_eq_of_cover 4 _ (fun t _ => edge0_flushed_eq V c t) edge0_cover

end Cert.KernelIdeal.RegionValue

end
-- ==== Proof.Edge2.lean ====
/-
  Region 2: the edge messages of one layer, as one whole-array function.

  The region walks over the 1600000 edges in 200 blocks of 8000 consecutive rows. At block `t` it holds rows
  `8000 t … 8000 t + 7999` of the gathered source rows (`[1600000, 128]`) and of the edge attributes
  (`[1600000, 1]`), together with the whole weight row and the whole bias row (`[1, 128]` each, the same at every
  block), and writes back rows `8000 t … 8000 t + 7999` of the result. Entry `(p, q)` of what it writes is

      max (src[p, q] + (attr[p, 0] * w[0, q] + b[0, q])) 0

  of the block's rows, so entry `(8000 t + p, q)` of the result depends only on row `8000 t + p` of the two
  edge arrays and on column `q` of the two rows. Every row `r` of the result lies in exactly one block, the one
  numbered `r / 8000`, so after the last block the result array is `Cert.Spec.edgeRows` of the four input arrays.
  All of this is stated at an arbitrary contents `V` of the buffers when the region is entered.
-/
import proofs.«117926_j9294309228817_1_alg».proof.Proof.Gen.KernelIdeal.Frame
import proofs.«117926_j9294309228817_1_alg».proof.Proof.Spec
import proofs.«117926_j9294309228817_1_alg».proof.Proof.EdgeCommon
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-! ## One entry of what the body stores -/

/-- The body's stored value at row `p`, column `q` of a block. The attribute column `v0` is spread over the
    columns and the weight row `v1` and bias row `v5` over the rows; the two casts keep their shapes and are the
    identity; the product, the two sums and the maximum act entry by entry; and the splat it clamps against is the
    zero word, which is the real number `0`. -/
theorem edge2_pay_apply (v0 : Vec Ideal S8000x1 .f32) (v1 v5 : Vec Ideal S1x128 .f32) (v9 : Vec Ideal S8000x128 .f32)
    (p : Fin 8000) (q : Fin 128) :
    k2_pay1 v0 v1 v5 v9 (ix2 p q)
      = max (v9 (ix2 p q) + (v0 (ix2 p 0) * v1 (ix2 0 q) + v5 (ix2 0 q))) 0 := by
  unfold k2_pay1
  rw [maximumf_apply, addf_apply, addf_apply, mulf_apply, broadcast_apply, shapeCast_self, shapeCast_self]
  rw [edge_colBroadcast_apply, broadcastTo_1b_ab_apply, broadcastTo_1b_ab_apply]
  show max _ (Ideal.ofBits .f32 0x00000000#32) = _
  rw [Ideal.ofBits_zero_f32]

/-! ## Which block each window holds at a grid point -/

/-- The block numbers at grid point `t`, decided over the 200 points: the source rows, the attributes and the
    result are at row block `t` (column block `0`); the weight row and the bias row are always at block `(0, 0)`. -/
theorem edge2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-! ## The four input blocks, read off their arrays

An element of a block sits in its array, on each axis, at the block number times the block's extent plus its own
coordinate. -/

/-- Entry `(p, q)` of the source-row block at point `t` is entry `(8000 t + p, q)` of the source-row array. -/
theorem edge2_src_apply (c : Dev nD) (t : Fin cfg2.N) (p : Fin 8000) (q : Fin 128) (r : Fin 1600000)
    (hr : r.val = 8000 * t.val + p.val) :
    (iblk2 V c 0 t : Vec Ideal S8000x128 .f32) (ix2 p q) = (V c main_v24 : S1600000x128.Idx → EReal) (ix2 r q) := by
  obtain ⟨e0, e1, -⟩ := edge2_idx t
  show V c main_v24 (((cfg2.win 0).blk t).view.emb (ix2 p q)) = V c main_v24 (ix2 r q)
  refine congrArg _ ?_
  funext a; apply Fin.ext
  match a with
  | ⟨0, _⟩ => show win2_0.index t (0 : Fin 2) * 8000 + 1 * p.val = r.val; rw [e0, hr]; omega
  | ⟨1, _⟩ => show win2_0.index t (1 : Fin 2) * 128 + 1 * q.val = q.val; rw [e1]; omega

/-- Entry `(p, 0)` of the attribute block at point `t` is entry `(8000 t + p, 0)` of the attribute array. -/
theorem edge2_attr_apply (c : Dev nD) (t : Fin cfg2.N) (p : Fin 8000) (r : Fin 1600000)
    (hr : r.val = 8000 * t.val + p.val) :
    (iblk2 V c 1 t : Vec Ideal S8000x1 .f32) (ix2 p 0) = (V c main_arg2 : S1600000x1.Idx → EReal) (ix2 r 0) := by
  obtain ⟨-, -, e0, e1, -⟩ := edge2_idx t
  show V c main_arg2 (((cfg2.win 1).blk t).view.emb (ix2 p 0)) = V c main_arg2 (ix2 r 0)
  refine congrArg _ ?_
  funext a; apply Fin.ext
  match a with
  | ⟨0, _⟩ => show win2_1.index t (0 : Fin 2) * 8000 + 1 * p.val = r.val; rw [e0, hr]; omega
  | ⟨1, _⟩ => show win2_1.index t (1 : Fin 2) * 1 + 1 * 0 = 0; rw [e1]

/-- The weight-row block at every point is the whole weight row. -/
theorem edge2_weight_eq (c : Dev nD) (t : Fin cfg2.N) :
    (iblk2 V c 2 t : Vec Ideal S1x128 .f32) = (V c main_arg8 : S1x128.Idx → EReal) := by
  obtain ⟨-, -, -, -, e0, e1, -⟩ := edge2_idx t
  funext y
  show V c main_arg8 (((cfg2.win 2).blk t).view.emb y) = V c main_arg8 y
  refine congrArg _ ?_
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The bias-row block at every point is the whole bias row. -/
theorem edge2_bias_eq (c : Dev nD) (t : Fin cfg2.N) :
    (iblk2 V c 3 t : Vec Ideal S1x128 .f32) = (V c main_v25 : S1x128.Idx → EReal) := by
  obtain ⟨-, -, -, -, -, -, e0, e1, -⟩ := edge2_idx t
  funext y
  show V c main_v25 (((cfg2.win 3).blk t).view.emb y) = V c main_v25 y
  refine congrArg _ ?_
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-! ## What one grid point writes back -/

/-- Over any four blocks and any four arrays: if the blocks' entries at `(p, q)`, `(p, 0)` are the arrays' entries
    at `(r, q)`, `(r, 0)` and the two row blocks are the two row arrays, then the stored value at `(p, q)` is the
    edge message at `(r, q)`. -/
theorem edge2_point_vars (x0 : Vec Ideal S8000x128 .f32) (x1 : Vec Ideal S8000x1 .f32) (x2 x3 : Vec Ideal S1x128 .f32)
    (A0 : FVec Ideal S1600000x128 .f32) (A1 : FVec Ideal S1600000x1 .f32) (A2 A3 : FVec Ideal S1x128 .f32)
    (p : Fin 8000) (q : Fin 128) (r : Fin 1600000)
    (h0 : x0 (ix2 p q) = A0 (ix2 r q)) (h1 : x1 (ix2 p 0) = A1 (ix2 r 0)) (h2 : x2 = A2) (h3 : x3 = A3) :
    k2_pay1 x1 x2 x3 x0 (ix2 p q) = Cert.Spec.edgeRows A0 A1 A2 A3 (ix2 r q) := by
  rw [edge2_pay_apply, Cert.Spec.edgeRows_apply, h0, h1, h2, h3]

/-- At point `t` the stored value at a block position is the edge message at the position's place in the result
    array, row `8000 t + p`, column `q`. -/
theorem edge2_point (c : Dev nD) (t : Fin cfg2.N) (j : S8000x128.Idx) :
    k2_pay1 (iblk2 V c 1 t) (iblk2 V c 2 t) (iblk2 V c 3 t) (iblk2 V c 0 t) j
      = Cert.Spec.edgeRows (V c main_v24) (V c main_arg2) (V c main_arg8) (V c main_v25)
          (((cfg2.win 4).blk t).view.emb j) := by
  obtain ⟨p, q, rfl⟩ : ∃ (p : Fin 8000) (q : Fin 128), j = ix2 p q := ⟨j 0, j 1, eq_ix2 j⟩
  have hN : cfg2.N = 200 := N_2
  have ht : t.val < 200 := hN ▸ t.isLt
  have hr : 8000 * t.val + p.val < 1600000 := by have := p.isLt; omega
  obtain ⟨-, -, -, -, -, -, -, -, e0, e1⟩ := edge2_idx t
  have hemb : ((cfg2.win 4).blk t).view.emb (ix2 p q) = ix2 (⟨8000 * t.val + p.val, hr⟩ : Fin 1600000) q := by
    funext a; apply Fin.ext
    match a with
    | ⟨0, _⟩ => show win2_4.index t (0 : Fin 2) * 8000 + 1 * p.val = 8000 * t.val + p.val; rw [e0]; omega
    | ⟨1, _⟩ => show win2_4.index t (1 : Fin 2) * 128 + 1 * q.val = q.val; rw [e1]; omega
  rw [hemb]
  exact edge2_point_vars _ _ _ _ _ _ _ _ p q ⟨8000 * t.val + p.val, hr⟩
    (edge2_src_apply V c t p q _ rfl) (edge2_attr_apply V c t p _ rfl) (edge2_weight_eq V c t) (edge2_bias_eq V c t)

/-- What point `t` writes back is block `t` of the edge messages of the four arrays as the region finds them:
    the body's one store covers its whole buffer, each load reads a whole input block, and the stored value is
    the edge message entry by entry. -/
theorem edge2_flushed_eq (c : Dev nD) (t : Fin cfg2.N) :
    (dat2 (F := Ideal) V c).flushed 4 t = ((cfg2.win 4).blk t).view.read (Elt Ideal)
      (Cert.Spec.edgeRows (V c main_v24) (V c main_arg2) (V c main_arg8) (V c main_v25)) := by
  show (cfg2.win 4).cut (grid2.coords t) ((dat2 (F := Ideal) V c).after 4 t) = _
  rw [after2_4]
  unfold out2_4
  rw [View.canon_unit_zero edge_hz]
  simp only [View.ld_unit_zero (S := S8000x128) edge_hz, View.ld_unit_zero (S := S8000x1) edge_hz,
    View.ld_unit_zero (S := S1x128) edge_hz]
  funext j
  exact edge2_point V c t j

/-! ## The blocks fill the result array -/

/-- An index of the result array is in point `t`'s block iff each coordinate is in the block's range on its axis. -/
theorem edge2_mem_blk (t : Fin cfg2.N) (i : S1600000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v26).slice (win2_4.rect t)).set ↔ _
  rw [View.set_slice_whole, Rect.mem_set_unit]
  exact Iff.rfl

/-- Every index `(r, q)` of the result array is in the block of point `r / 8000`, and every point writes back. -/
theorem edge2_cover (i : S1600000x128.Idx) :
    ∃ t : Fin cfg2.N, (cfg2.win 4).flush t = true ∧ i ∈ ((cfg2.win 4).blk t).view.set := by
  have hN : cfg2.N = 200 := N_2
  have hi0 : (i 0).val < 1600000 := (i 0).isLt
  have hi1 : (i 1).val < 128 := (i 1).isLt
  obtain ⟨t, htv⟩ : ∃ t : Fin cfg2.N, t.val = (i 0).val / 8000 := ⟨⟨(i 0).val / 8000, by rw [hN]; omega⟩, rfl⟩
  refine ⟨t, flush2_4 t, ?_⟩
  rw [edge2_mem_blk]
  obtain ⟨-, -, -, -, -, -, -, -, e0, e1⟩ := edge2_idx t
  intro a
  match a with
  | ⟨0, _⟩ =>
    show win2_4.index t (0 : Fin 2) * 8000 ≤ (i 0).val ∧ (i 0).val < win2_4.index t (0 : Fin 2) * 8000 + 8000
    rw [e0, htv]; omega
  | ⟨1, _⟩ =>
    show win2_4.index t (1 : Fin 2) * 128 ≤ (i 1).val ∧ (i 1).val < win2_4.index t (1 : Fin 2) * 128 + 128
    rw [e1]; omega

/-- After the region the result array holds the edge messages of the four input arrays as the region found them. -/
theorem final2 (c : Dev nD) : (dat2 (F := Ideal) V c).arrAt 4 cfg2.N
    = Cert.Spec.edgeRows (V c main_v24) (V c main_arg2) (V c main_arg8) (V c main_v25) :=
  (dat2 (F := Ideal) V c).arrAt_eq_of_cover 4 _ (fun t _ => edge2_flushed_eq V c t) edge2_cover

end Cert.KernelIdeal.RegionValue

end
-- ==== Proof.Edge4.lean ====
/-
  Region 4: the edge messages of one layer, as one whole-array function.

  The region walks over the 1600000 edges in 200 blocks of 8000 consecutive rows. At block `t` it holds rows
  `8000 t … 8000 t + 7999` of the gathered source rows (`[1600000, 128]`) and of the edge attributes
  (`[1600000, 1]`), together with the whole weight row and the whole bias row (`[1, 128]` each, the same at every
  block), and writes back rows `8000 t … 8000 t + 7999` of the result. Entry `(p, q)` of what it writes is

      max (src[p, q] + (attr[p, 0] * w[0, q] + b[0, q])) 0

  of the block's rows, so entry `(8000 t + p, q)` of the result depends only on row `8000 t + p` of the two
  edge arrays and on column `q` of the two rows. Every row `r` of the result lies in exactly one block, the one
  numbered `r / 8000`, so after the last block the result array is `Cert.Spec.edgeRows` of the four input arrays.
  All of this is stated at an arbitrary contents `V` of the buffers when the region is entered.
-/
import proofs.«117926_j9294309228817_1_alg».proof.Proof.Gen.KernelIdeal.Frame
import proofs.«117926_j9294309228817_1_alg».proof.Proof.Spec
import proofs.«117926_j9294309228817_1_alg».proof.Proof.EdgeCommon
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-! ## One entry of what the body stores -/

/-- The body's stored value at row `p`, column `q` of a block. The attribute column `v0` is spread over the
    columns and the weight row `v1` and bias row `v5` over the rows; the two casts keep their shapes and are the
    identity; the product, the two sums and the maximum act entry by entry; and the splat it clamps against is the
    zero word, which is the real number `0`. -/
theorem edge4_pay_apply (v0 : Vec Ideal S8000x1 .f32) (v1 v5 : Vec Ideal S1x128 .f32) (v9 : Vec Ideal S8000x128 .f32)
    (p : Fin 8000) (q : Fin 128) :
    k4_pay1 v0 v1 v5 v9 (ix2 p q)
      = max (v9 (ix2 p q) + (v0 (ix2 p 0) * v1 (ix2 0 q) + v5 (ix2 0 q))) 0 := by
  unfold k4_pay1
  rw [maximumf_apply, addf_apply, addf_apply, mulf_apply, broadcast_apply, shapeCast_self, shapeCast_self]
  rw [edge_colBroadcast_apply, broadcastTo_1b_ab_apply, broadcastTo_1b_ab_apply]
  show max _ (Ideal.ofBits .f32 0x00000000#32) = _
  rw [Ideal.ofBits_zero_f32]

/-! ## Which block each window holds at a grid point -/

/-- The block numbers at grid point `t`, decided over the 200 points: the source rows, the attributes and the
    result are at row block `t` (column block `0`); the weight row and the bias row are always at block `(0, 0)`. -/
theorem edge4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-! ## The four input blocks, read off their arrays

An element of a block sits in its array, on each axis, at the block number times the block's extent plus its own
coordinate. -/

/-- Entry `(p, q)` of the source-row block at point `t` is entry `(8000 t + p, q)` of the source-row array. -/
theorem edge4_src_apply (c : Dev nD) (t : Fin cfg4.N) (p : Fin 8000) (q : Fin 128) (r : Fin 1600000)
    (hr : r.val = 8000 * t.val + p.val) :
    (iblk4 V c 0 t : Vec Ideal S8000x128 .f32) (ix2 p q) = (V c main_v38 : S1600000x128.Idx → EReal) (ix2 r q) := by
  obtain ⟨e0, e1, -⟩ := edge4_idx t
  show V c main_v38 (((cfg4.win 0).blk t).view.emb (ix2 p q)) = V c main_v38 (ix2 r q)
  refine congrArg _ ?_
  funext a; apply Fin.ext
  match a with
  | ⟨0, _⟩ => show win4_0.index t (0 : Fin 2) * 8000 + 1 * p.val = r.val; rw [e0, hr]; omega
  | ⟨1, _⟩ => show win4_0.index t (1 : Fin 2) * 128 + 1 * q.val = q.val; rw [e1]; omega

/-- Entry `(p, 0)` of the attribute block at point `t` is entry `(8000 t + p, 0)` of the attribute array. -/
theorem edge4_attr_apply (c : Dev nD) (t : Fin cfg4.N) (p : Fin 8000) (r : Fin 1600000)
    (hr : r.val = 8000 * t.val + p.val) :
    (iblk4 V c 1 t : Vec Ideal S8000x1 .f32) (ix2 p 0) = (V c main_arg2 : S1600000x1.Idx → EReal) (ix2 r 0) := by
  obtain ⟨-, -, e0, e1, -⟩ := edge4_idx t
  show V c main_arg2 (((cfg4.win 1).blk t).view.emb (ix2 p 0)) = V c main_arg2 (ix2 r 0)
  refine congrArg _ ?_
  funext a; apply Fin.ext
  match a with
  | ⟨0, _⟩ => show win4_1.index t (0 : Fin 2) * 8000 + 1 * p.val = r.val; rw [e0, hr]; omega
  | ⟨1, _⟩ => show win4_1.index t (1 : Fin 2) * 1 + 1 * 0 = 0; rw [e1]

/-- The weight-row block at every point is the whole weight row. -/
theorem edge4_weight_eq (c : Dev nD) (t : Fin cfg4.N) :
    (iblk4 V c 2 t : Vec Ideal S1x128 .f32) = (V c main_arg12 : S1x128.Idx → EReal) := by
  obtain ⟨-, -, -, -, e0, e1, -⟩ := edge4_idx t
  funext y
  show V c main_arg12 (((cfg4.win 2).blk t).view.emb y) = V c main_arg12 y
  refine congrArg _ ?_
  funext a; apply Fin.ext
  match a with
  | ⟨0, _⟩ => show win4_2.index t (0 : Fin 2) * 1 + 1 * (y 0).val = (y 0).val; rw [e0]; omega
  | ⟨1, _⟩ => show win4_2.index t (1 : Fin 2) * 128 + 1 * (y 1).val = (y 1).val; rw [e1]; omega

/-- The bias-row block at every point is the whole bias row. -/
theorem edge4_bias_eq (c : Dev nD) (t : Fin cfg4.N) :
    (iblk4 V c 3 t : Vec Ideal S1x128 .f32) = (V c main_v39 : S1x128.Idx → EReal) := by
  obtain ⟨-, -, -, -, -, -, e0, e1, -⟩ := edge4_idx t
  funext y
  show V c main_v39 (((cfg4.win 3).blk t).view.emb y) = V c main_v39 y
  refine congrArg _ ?_
  funext a; apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-! ## What one grid point writes back -/

/-- Over any four blocks and any four arrays: if the blocks' entries at `(p, q)`, `(p, 0)` are the arrays' entries
    at `(r, q)`, `(r, 0)` and the two row blocks are the two row arrays, then the stored value at `(p, q)` is the
    edge message at `(r, q)`. -/
theorem edge4_point_vars (x0 : Vec Ideal S8000x128 .f32) (x1 : Vec Ideal S8000x1 .f32) (x2 x3 : Vec Ideal S1x128 .f32)
    (A0 : FVec Ideal S1600000x128 .f32) (A1 : FVec Ideal S1600000x1 .f32) (A2 A3 : FVec Ideal S1x128 .f32)
    (p : Fin 8000) (q : Fin 128) (r : Fin 1600000)
    (h0 : x0 (ix2 p q) = A0 (ix2 r q)) (h1 : x1 (ix2 p 0) = A1 (ix2 r 0)) (h2 : x2 = A2) (h3 : x3 = A3) :
    k4_pay1 x1 x2 x3 x0 (ix2 p q) = Cert.Spec.edgeRows A0 A1 A2 A3 (ix2 r q) := by
  rw [edge4_pay_apply, Cert.Spec.edgeRows_apply, h0, h1, h2, h3]

/-- At point `t` the stored value at a block position is the edge message at the position's place in the result
    array, row `8000 t + p`, column `q`. -/
theorem edge4_point (c : Dev nD) (t : Fin cfg4.N) (j : S8000x128.Idx) :
    k4_pay1 (iblk4 V c 1 t) (iblk4 V c 2 t) (iblk4 V c 3 t) (iblk4 V c 0 t) j
      = Cert.Spec.edgeRows (V c main_v38) (V c main_arg2) (V c main_arg12) (V c main_v39)
          (((cfg4.win 4).blk t).view.emb j) := by
  obtain ⟨p, q, rfl⟩ : ∃ (p : Fin 8000) (q : Fin 128), j = ix2 p q := ⟨j 0, j 1, eq_ix2 j⟩
  have hN : cfg4.N = 200 := N_4
  have ht : t.val < 200 := hN ▸ t.isLt
  have hr : 8000 * t.val + p.val < 1600000 := by have := p.isLt; omega
  obtain ⟨-, -, -, -, -, -, -, -, e0, e1⟩ := edge4_idx t
  have hemb : ((cfg4.win 4).blk t).view.emb (ix2 p q) = ix2 (⟨8000 * t.val + p.val, hr⟩ : Fin 1600000) q := by
    funext a; apply Fin.ext
    match a with
    | ⟨0, _⟩ => show win4_4.index t (0 : Fin 2) * 8000 + 1 * p.val = 8000 * t.val + p.val; rw [e0]; omega
    | ⟨1, _⟩ => show win4_4.index t (1 : Fin 2) * 128 + 1 * q.val = q.val; rw [e1]; omega
  rw [hemb]
  exact edge4_point_vars _ _ _ _ _ _ _ _ p q ⟨8000 * t.val + p.val, hr⟩
    (edge4_src_apply V c t p q _ rfl) (edge4_attr_apply V c t p _ rfl) (edge4_weight_eq V c t) (edge4_bias_eq V c t)

/-- What point `t` writes back is block `t` of the edge messages of the four arrays as the region finds them:
    the body's one store covers its whole buffer, each load reads a whole input block, and the stored value is
    the edge message entry by entry. -/
theorem edge4_flushed_eq (c : Dev nD) (t : Fin cfg4.N) :
    (dat4 (F := Ideal) V c).flushed 4 t = ((cfg4.win 4).blk t).view.read (Elt Ideal)
      (Cert.Spec.edgeRows (V c main_v38) (V c main_arg2) (V c main_arg12) (V c main_v39)) := by
  show (cfg4.win 4).cut (grid4.coords t) ((dat4 (F := Ideal) V c).after 4 t) = _
  rw [after4_4]
  unfold out4_4
  rw [View.canon_unit_zero edge_hz]
  simp only [View.ld_unit_zero (S := S8000x128) edge_hz, View.ld_unit_zero (S := S8000x1) edge_hz,
    View.ld_unit_zero (S := S1x128) edge_hz]
  funext j
  exact edge4_point V c t j

/-! ## The blocks fill the result array -/

/-- An index of the result array is in point `t`'s block iff each coordinate is in the block's range on its axis. -/
theorem edge4_mem_blk (t : Fin cfg4.N) (i : S1600000x128.Idx) :
    i ∈ ((cfg4.win 4).blk t).view.set ↔ ∀ a : Fin 2, win4_4.index t a * S8000x128.size a ≤ (i a).val
      ∧ (i a).val < win4_4.index t a * S8000x128.size a + S8000x128.size a := by
  show i ∈ ((View.whole main_v40).slice (win4_4.rect t)).set ↔ _
  rw [View.set_slice_whole, Rect.mem_set_unit]
  exact Iff.rfl

/-- Every index `(r, q)` of the result array is in the block of point `r / 8000`, and every point writes back. -/
theorem edge4_cover (i : S1600000x128.Idx) :
    ∃ t : Fin cfg4.N, (cfg4.win 4).flush t = true ∧ i ∈ ((cfg4.win 4).blk t).view.set := by
  have hN : cfg4.N = 200 := N_4
  have hi0 : (i 0).val < 1600000 := (i 0).isLt
  have hi1 : (i 1).val < 128 := (i 1).isLt
  obtain ⟨t, htv⟩ : ∃ t : Fin cfg4.N, t.val = (i 0).val / 8000 := ⟨⟨(i 0).val / 8000, by rw [hN]; omega⟩, rfl⟩
  refine ⟨t, flush4_4 t, ?_⟩
  rw [edge4_mem_blk]
  obtain ⟨-, -, -, -, -, -, -, -, e0, e1⟩ := edge4_idx t
  intro a
  match a with
  | ⟨0, _⟩ =>
    show win4_4.index t (0 : Fin 2) * 8000 ≤ (i 0).val ∧ (i 0).val < win4_4.index t (0 : Fin 2) * 8000 + 8000
    rw [e0, htv]; omega
  | ⟨1, _⟩ =>
    show win4_4.index t (1 : Fin 2) * 128 ≤ (i 1).val ∧ (i 1).val < win4_4.index t (1 : Fin 2) * 128 + 128
    rw [e1]; omega

/-- After the region the result array holds the edge messages of the four input arrays as the region found them. -/
theorem final4 (c : Dev nD) : (dat4 (F := Ideal) V c).arrAt 4 cfg4.N
    = Cert.Spec.edgeRows (V c main_v38) (V c main_arg2) (V c main_arg12) (V c main_v39) :=
  (dat4 (F := Ideal) V c).arrAt_eq_of_cover 4 _ (fun t _ => edge4_flushed_eq V c t) edge4_cover

end Cert.KernelIdeal.RegionValue

end
-- ==== Proof.Node1.lean ====
/-
  Region 1 (a node update) of the three-layer network, read as ONE function of the arrays the region finds.

  The region walks the 100000 × 7 aggregate and feature arrays in twenty blocks of 5000 rows. At each block
  it adds the two row blocks, multiplies the sum by the whole 7 × 128 weight matrix, adds the bias row to every
  row and clamps at zero. Row `r` of the result therefore depends on row `r` of the two inputs, on the whole
  weight matrix and on the bias row, and on nothing else: entry `(r, q)` is
  `max ((∑ k, (agg[r, k] + x[r, k]) * W[k, q]) + b[0, q]) 0`, the contraction of the block product being the sum
  over `k`. Rounding the two factors to a narrower format is the identity on the extended reals, and the
  product accumulates into zero, so nothing else is left of the block product.

  The steps: the block product at an entry as the sum over the contraction index; the body's value at an entry
  of a block; the same value in terms of the arrays the blocks are cut from; what a grid point writes back
  as its block of the whole-array function; the twenty blocks cover the array; hence the array.
-/
import proofs.«117926_j9294309228817_1_alg».proof.Proof.Gen.KernelIdeal.Frame
import proofs.«117926_j9294309228817_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an entry -/

/-- The left operand's index at output entry `i` and contraction index `q`: row `i 0`, … -/
theorem lhsRow1 (i : S5000x128.Idx) (q : dot_S5000x7_S7x128_S5000x128_1_0_0_1_n_n.contr.Idx) :
    (dot_S5000x7_S7x128_S5000x128_1_0_0_1_n_n.lhsIdx i q 0).val = (i 0).val := by
  unfold DotDims.lhsIdx
  rw [dif_neg (show ¬(0 : Fin S5000x7.rank) ∈ dot_S5000x7_S7x128_S5000x128_1_0_0_1_n_n.lhsBatch by decide), dif_pos (show (0 : Fin S5000x7.rank) ∈ dot_S5000x7_S7x128_S5000x128_1_0_0_1_n_n.lhsNonContracting by decide)]
  rfl
/-- … column the contraction coordinate. -/
theorem lhsCol1 (i : S5000x128.Idx) (q : dot_S5000x7_S7x128_S5000x128_1_0_0_1_n_n.contr.Idx) :
    (dot_S5000x7_S7x128_S5000x128_1_0_0_1_n_n.lhsIdx i q 1).val = (q ⟨0, by decide⟩).val :=
  dot_S5000x7_S7x128_S5000x128_1_0_0_1_n_n.lhsIdx_val_of_single rfl i q
/-- The right operand's index: row the contraction coordinate, … -/
theorem rhsRow1 (i : S5000x128.Idx) (q : dot_S5000x7_S7x128_S5000x128_1_0_0_1_n_n.contr.Idx) :
    (dot_S5000x7_S7x128_S5000x128_1_0_0_1_n_n.rhsIdx i q 0).val = (q ⟨0, by decide⟩).val :=
  dot_S5000x7_S7x128_S5000x128_1_0_0_1_n_n.rhsIdx_val_of_single rfl i q
/-- … column `i 1`. -/
theorem rhsCol1 (i : S5000x128.Idx) (q : dot_S5000x7_S7x128_S5000x128_1_0_0_1_n_n.contr.Idx) :
    (dot_S5000x7_S7x128_S5000x128_1_0_0_1_n_n.rhsIdx i q 1).val = (i 1).val := by
  unfold DotDims.rhsIdx
  rw [dif_neg (show ¬(1 : Fin S7x128.rank) ∈ dot_S5000x7_S7x128_S5000x128_1_0_0_1_n_n.rhsBatch by decide), dif_pos (show (1 : Fin S7x128.rank) ∈ dot_S5000x7_S7x128_S5000x128_1_0_0_1_n_n.rhsNonContracting by decide)]
  rfl

/-- A [5000, 7] block times a [7, 128] matrix into the zero accumulator, at entry `(p, q)`: the sum over
    `k` of `l[p, k] * r[k, q]` (the one-axis contraction index re-indexed by its coordinate). -/
theorem blockProduct1_apply (l : FVec Ideal S5000x7 .bf16) (r : FVec Ideal S7x128 .bf16) (p : Fin 5000) (q : Fin 128) :
    matmul dot_S5000x7_S7x128_S5000x128_1_0_0_1_n_n none l r (constant S5000x128 .f32 0x00000000#32) (ix2 p q)
      = ∑ k : Fin 7, l (ix2 p k) * r (ix2 k q) := by
  simp only [matmul]
  rw [Ideal.matmul_constant_zero_apply, ← Equiv.sum_comp (contrEquiv1 dot_S5000x7_S7x128_S5000x128_1_0_0_1_n_n 7 rfl rfl).symm]
  refine Finset.sum_congr rfl fun k _ => ?_
  have hk := contrEquiv1_symm_val dot_S5000x7_S7x128_S5000x128_1_0_0_1_n_n 7 rfl rfl k
  have el : dot_S5000x7_S7x128_S5000x128_1_0_0_1_n_n.lhsIdx (ix2 p q) ((contrEquiv1 dot_S5000x7_S7x128_S5000x128_1_0_0_1_n_n 7 rfl rfl).symm k) = ix2 p k := funext fun a => Fin.ext (by
    match a with
    | ⟨0, _⟩ => exact lhsRow1 _ _
    | ⟨1, _⟩ => exact (lhsCol1 _ _).trans hk)
  have er : dot_S5000x7_S7x128_S5000x128_1_0_0_1_n_n.rhsIdx (ix2 p q) ((contrEquiv1 dot_S5000x7_S7x128_S5000x128_1_0_0_1_n_n 7 rfl rfl).symm k) = ix2 k q := funext fun a => Fin.ext (by
    match a with
    | ⟨0, _⟩ => exact (rhsRow1 _ _).trans hk
    | ⟨1, _⟩ => exact rhsCol1 _ _)
  rw [el, er]

/-! ## The body's value at an entry of a block -/

/-- The body's value at entry `(p, q)` of a block, from the four loaded blocks: the casts to the same shape
    and the narrowing of the two factors are identities on the extended reals, the block product is the sum
    over `k`, the bias row is read at column `q`, and the zero the result is clamped at is the real zero. -/
theorem body1_apply (x0 x1 : Vec Ideal S5000x7 .f32) (x2 : Vec Ideal S7x128 .f32) (x3 : Vec Ideal S1x128 .f32)
    (p : Fin 5000) (q : Fin 128) :
    k1_pay1 (F := Ideal) x0 x1 x2 x3 (ix2 p q)
      = max ((∑ k : Fin 7, (x0 (ix2 p k) + x1 (ix2 p k)) * x2 (ix2 k q)) + x3 (ix2 0 q)) 0 := by
  unfold k1_pay1
  show max (matmul (F := Ideal) dot_S5000x7_S7x128_S5000x128_1_0_0_1_n_n none
        (truncf .bf16 (addf (shapeCast S5000x7 x0 shapeCasts_S5000x7_S5000x7) x1) bitsLt_bf16_f32)
        (truncf .bf16 x2 bitsLt_bf16_f32) (constant (F := Ideal) S5000x128 .f32 0x00000000#32) (ix2 p q)
      + broadcastTo S5000x128 (shapeCast S1x128 x3 shapeCasts_S1x128_S1x128) broadcasts_S1x128_S5000x128 (ix2 p q))
    (Ideal.ofBits .f32 0x00000000#32) = _
  rw [blockProduct1_apply, shapeCast_self, shapeCast_self, broadcastTo_1b_ab_apply, Ideal.ofBits_zero_f32]
  rfl

/-- The same value in terms of the arrays the blocks are cut from: when the two row blocks are rows
    `t * 5000 + p` of `A0` and `A1` and the weight matrix and the bias row are whole, entry `(p, q)` of the block is
    the node update at row `t * 5000 + p`, column `q`. -/
theorem rows1_eq (A0 A1 : FVec Ideal S100000x7 .f32) (W : FVec Ideal S7x128 .f32) (b : FVec Ideal S1x128 .f32)
    (x0 x1 : Vec Ideal S5000x7 .f32) (x2 : Vec Ideal S7x128 .f32) (x3 : Vec Ideal S1x128 .f32)
    (t : Nat) (ht : t < 20)
    (h0 : ∀ (p : Fin 5000) (k : Fin 7), x0 (ix2 p k) = A0 (ix2 (⟨t * 5000 + p.val, by omega⟩ : Fin 100000) k))
    (h1 : ∀ (p : Fin 5000) (k : Fin 7), x1 (ix2 p k) = A1 (ix2 (⟨t * 5000 + p.val, by omega⟩ : Fin 100000) k))
    (h2 : x2 = W) (h3 : x3 = b) (p : Fin 5000) (q : Fin 128) :
    k1_pay1 (F := Ideal) x0 x1 x2 x3 (ix2 p q)
      = Cert.Spec.nodeRows A0 A1 W b (ix2 (⟨t * 5000 + p.val, by omega⟩ : Fin 100000) q) := by
  rw [body1_apply, Cert.Spec.nodeRows_apply]
  subst h2 h3
  simp only [h0, h1]

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The block indices over the grid: at point `t` the two row-block inputs and the output are at block row
    `t`, block column 0; the weight matrix and the bias row are block (0, 0) at every point. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` — rows `5000 t … 5000 t + 4999`, every column — of the node update
    of the four arrays as the region finds them: an element of a block sits in its array at block index times
    block size plus its coordinate in the block, on each axis. -/
theorem written1_eq (c : Dev nD) (t : Fin cfg1.N) :
    (dat1 (F := Ideal) V c).flushed 4 t = ((cfg1.win 4).blk t).view.read (Elt Ideal)
      (Cert.Spec.nodeRows (V c main_v15) (V c main_arg0) (V c main_arg6) (V c main_v16)) := by
  show (cfg1.win 4).cut (grid1.coords t) ((dat1 (F := Ideal) V c).after 4 t) = _
  rw [after1_4]
  unfold out1_4
  rw [View.canon_unit_zero hz1]
  simp only [View.ld_unit_zero (S := S5000x7) hz1, View.ld_unit_zero (S := S7x128) hz1, View.ld_unit_zero (S := S1x128) hz1]
  obtain ⟨e00, e01, e10, e11, e20, e21, e30, e31, e40, e41⟩ := blockIndex1 t
  funext j
  have hj0 : (j 0).val < 5000 := (j 0).isLt
  have hj1 : (j 1).val < 128 := (j 1).isLt
  have ht : t.val < 20 := lt_of_lt_of_eq t.isLt N_1
  have hjj : (j : S5000x128.Idx) = ix2 (⟨(j 0).val, hj0⟩ : Fin 5000) (⟨(j 1).val, hj1⟩ : Fin 128) :=
    funext fun a => by match a with | ⟨0, _⟩ => rfl | ⟨1, _⟩ => rfl
  have hemb : (((cfg1.win 4).blk t).view.emb j : S100000x128.Idx)
      = ix2 (⟨t.val * 5000 + (j 0).val, by omega⟩ : Fin 100000) (⟨(j 1).val, hj1⟩ : Fin 128) := by
    funext a; apply Fin.ext
    match a with
    | ⟨0, _⟩ => show win1_4.index t (0 : Fin 2) * 5000 + 1 * (j 0).val = t.val * 5000 + (j 0).val; rw [e40]; omega
    | ⟨1, _⟩ => show win1_4.index t (1 : Fin 2) * 128 + 1 * (j 1).val = (j 1).val; rw [e41]; omega
  show k1_pay1 (F := Ideal) (iblk1 V c 0 t) (iblk1 V c 1 t) (iblk1 V c 2 t) (iblk1 V c 3 t) j
    = Cert.Spec.nodeRows (V c main_v15) (V c main_arg0) (V c main_arg6) (V c main_v16) (((cfg1.win 4).blk t).view.emb j)
  rw [hemb]
  refine (congrArg (k1_pay1 (F := Ideal) (iblk1 V c 0 t) (iblk1 V c 1 t) (iblk1 V c 2 t) (iblk1 V c 3 t)) hjj).trans ?_
  refine rows1_eq (V c main_v15) (V c main_arg0) (V c main_arg6) (V c main_v16)
    (iblk1 V c 0 t) (iblk1 V c 1 t) (iblk1 V c 2 t) (iblk1 V c 3 t) t.val ht ?_ ?_ ?_ ?_
    (⟨(j 0).val, hj0⟩ : Fin 5000) (⟨(j 1).val, hj1⟩ : Fin 128)
  · intro p k
    have he : (((cfg1.win 0).blk t).view.emb (ix2 p k) : S100000x7.Idx) = ix2 (⟨t.val * 5000 + p.val, by omega⟩ : Fin 100000) k := by
      funext a; apply Fin.ext
      match a with
      | ⟨0, _⟩ => show win1_0.index t (0 : Fin 2) * 5000 + 1 * p.val = t.val * 5000 + p.val; rw [e00]; omega
      | ⟨1, _⟩ => show win1_0.index t (1 : Fin 2) * 7 + 1 * k.val = k.val; rw [e01]; omega
    show V c main_v15 (((cfg1.win 0).blk t).view.emb (ix2 p k)) = _
    rw [he]
  · intro p k
    have he : (((cfg1.win 1).blk t).view.emb (ix2 p k) : S100000x7.Idx) = ix2 (⟨t.val * 5000 + p.val, by omega⟩ : Fin 100000) k := by
      funext a; apply Fin.ext
      match a with
      | ⟨0, _⟩ => show win1_1.index t (0 : Fin 2) * 5000 + 1 * p.val = t.val * 5000 + p.val; rw [e10]; omega
      | ⟨1, _⟩ => show win1_1.index t (1 : Fin 2) * 7 + 1 * k.val = k.val; rw [e11]; omega
    show V c main_arg0 (((cfg1.win 1).blk t).view.emb (ix2 p k)) = _
    rw [he]
  · funext y
    have he : (((cfg1.win 2).blk t).view.emb y : S7x128.Idx) = y := by
      funext a; apply Fin.ext
      match a with
      | ⟨0, _⟩ => show win1_2.index t (0 : Fin 2) * 7 + 1 * (y 0).val = (y 0).val; rw [e20]; omega
      | ⟨1, _⟩ => show win1_2.index t (1 : Fin 2) * 128 + 1 * (y 1).val = (y 1).val; rw [e21]; omega
    show V c main_arg6 (((cfg1.win 2).blk t).view.emb y) = _
    rw [he]
  · funext y
    have he : (((cfg1.win 3).blk t).view.emb y : S1x128.Idx) = y := by
      funext a; apply Fin.ext
      match a with
      | ⟨0, _⟩ => show win1_3.index t (0 : Fin 2) * 1 + 1 * (y 0).val = (y 0).val; rw [e30]; omega
      | ⟨1, _⟩ => show win1_3.index t (1 : Fin 2) * 128 + 1 * (y 1).val = (y 1).val; rw [e31]; omega
    show V c main_v16 (((cfg1.win 3).blk t).view.emb y) = _
    rw [he]

/-- An index of the output array is in point `t`'s block iff each coordinate is in the block's range on its axis. -/
theorem inBlock1_iff (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v17).slice (win1_4.rect t)).set ↔ _
  rw [View.set_slice_whole, Rect.mem_set_unit]
  exact Iff.rfl

/-- The twenty row blocks cover the array: row `r` lies in the block of point `r / 5000`. -/
theorem covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, e40, e41⟩ := blockIndex1 t
  refine ⟨t, flush1_4 t, ?_⟩
  rw [inBlock1_iff]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 128 ≤ (i 1).val ∧ (i 1).val < win1_4.index t (1 : Fin 2) * 128 + 128
    rw [e41]; omega

/-- The output array after region 1 is the node update of the region's four input arrays as it finds them. -/
theorem final1 (c : Dev nD) : (dat1 (F := Ideal) V c).arrAt 4 cfg1.N
    = Cert.Spec.nodeRows (V c main_v15) (V c main_arg0) (V c main_arg6) (V c main_v16) :=
  (dat1 (F := Ideal) V c).arrAt_eq_of_cover 4 _ (fun t _ => written1_eq V c t) covered1

end Cert.KernelIdeal.RegionValue

end
-- ==== Proof.Node3.lean ====
/-
  Region 3 (a node update) of the three-layer network, read as ONE function of the arrays the region finds.

  The region walks the 100000 × 128 aggregate and feature arrays in twenty blocks of 5000 rows. At each block
  it adds the two row blocks, multiplies the sum by the whole 128 × 128 weight matrix, adds the bias row to every
  row and clamps at zero. Row `r` of the result therefore depends on row `r` of the two inputs, on the whole
  weight matrix and on the bias row, and on nothing else: entry `(r, q)` is
  `max ((∑ k, (agg[r, k] + x[r, k]) * W[k, q]) + b[0, q]) 0`, the contraction of the block product being the sum
  over `k`. Rounding the two factors to a narrower format is the identity on the extended reals, and the
  product accumulates into zero, so nothing else is left of the block product.

  The steps: the block product at an entry as the sum over the contraction index; the body's value at an entry
  of a block; the same value in terms of the arrays the blocks are cut from; what a grid point writes back
  as its block of the whole-array function; the twenty blocks cover the array; hence the array.
-/
import proofs.«117926_j9294309228817_1_alg».proof.Proof.Gen.KernelIdeal.Frame
import proofs.«117926_j9294309228817_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an entry -/

/-- The left operand's index at output entry `i` and contraction index `q`: row `i 0`, … -/
theorem lhsRow3 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction coordinate. -/
theorem lhsCol3 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contraction coordinate, … -/
theorem rhsRow3 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhsCol3 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] block times a [128, 128] matrix into the zero accumulator, at entry `(p, q)`: the sum over
    `k` of `l[p, k] * r[k, q]` (the one-axis contraction index re-indexed by its coordinate). -/
theorem blockProduct3_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow3 _ _
    | ⟨1, _⟩ => exact (lhsCol3 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow3 _ _).trans hk
    | ⟨1, _⟩ => exact rhsCol3 _ _)
  rw [el, er]

/-! ## The body's value at an entry of a block -/

/-- The body's value at entry `(p, q)` of a block, from the four loaded blocks: the casts to the same shape
    and the narrowing of the two factors are identities on the extended reals, the block product is the sum
    over `k`, the bias row is read at column `q`, and the zero the result is clamped at is the real zero. -/
theorem body3_apply (x0 x1 : Vec Ideal S5000x128 .f32) (x2 : Vec Ideal S128x128 .f32) (x3 : Vec Ideal S1x128 .f32)
    (p : Fin 5000) (q : Fin 128) :
    k3_pay1 (F := Ideal) x0 x1 x2 x3 (ix2 p q)
      = max ((∑ k : Fin 128, (x0 (ix2 p k) + x1 (ix2 p k)) * x2 (ix2 k q)) + x3 (ix2 0 q)) 0 := by
  unfold k3_pay1
  show max (matmul (F := Ideal) dot_S5000x128_S128x128_S5000x128_1_0_0_1_n_n none
        (truncf .bf16 (addf (shapeCast S5000x128 x0 shapeCasts_S5000x128_S5000x128) (shapeCast S5000x128 x1 shapeCasts_S5000x128_S5000x128)) bitsLt_bf16_f32)
        (truncf .bf16 x2 bitsLt_bf16_f32) (constant (F := Ideal) S5000x128 .f32 0x00000000#32) (ix2 p q)
      + broadcastTo S5000x128 (shapeCast S1x128 x3 shapeCasts_S1x128_S1x128) broadcasts_S1x128_S5000x128 (ix2 p q))
    (Ideal.ofBits .f32 0x00000000#32) = _
  rw [blockProduct3_apply, shapeCast_self, shapeCast_self, shapeCast_self, broadcastTo_1b_ab_apply, Ideal.ofBits_zero_f32]
  rfl

/-- The same value in terms of the arrays the blocks are cut from: when the two row blocks are rows
    `t * 5000 + p` of `A0` and `A1` and the weight matrix and the bias row are whole, entry `(p, q)` of the block is
    the node update at row `t * 5000 + p`, column `q`. -/
theorem rows3_eq (A0 A1 : FVec Ideal S100000x128 .f32) (W : FVec Ideal S128x128 .f32) (b : FVec Ideal S1x128 .f32)
    (x0 x1 : Vec Ideal S5000x128 .f32) (x2 : Vec Ideal S128x128 .f32) (x3 : Vec Ideal S1x128 .f32)
    (t : Nat) (ht : t < 20)
    (h0 : ∀ (p : Fin 5000) (k : Fin 128), x0 (ix2 p k) = A0 (ix2 (⟨t * 5000 + p.val, by omega⟩ : Fin 100000) k))
    (h1 : ∀ (p : Fin 5000) (k : Fin 128), x1 (ix2 p k) = A1 (ix2 (⟨t * 5000 + p.val, by omega⟩ : Fin 100000) k))
    (h2 : x2 = W) (h3 : x3 = b) (p : Fin 5000) (q : Fin 128) :
    k3_pay1 (F := Ideal) x0 x1 x2 x3 (ix2 p q)
      = Cert.Spec.nodeRows A0 A1 W b (ix2 (⟨t * 5000 + p.val, by omega⟩ : Fin 100000) q) := by
  rw [body3_apply, Cert.Spec.nodeRows_apply]
  subst h2 h3
  simp only [h0, h1]

/-! ## From blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The block indices over the grid: at point `t` the two row-block inputs and the output are at block row
    `t`, block column 0; the weight matrix and the bias row are block (0, 0) at every point. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` — rows `5000 t … 5000 t + 4999`, every column — of the node update
    of the four arrays as the region finds them: an element of a block sits in its array at block index times
    block size plus its coordinate in the block, on each axis. -/
theorem written3_eq (c : Dev nD) (t : Fin cfg3.N) :
    (dat3 (F := Ideal) V c).flushed 4 t = ((cfg3.win 4).blk t).view.read (Elt Ideal)
      (Cert.Spec.nodeRows (V c main_v29) (V c main_v17) (V c main_arg10) (V c main_v30)) := by
  show (cfg3.win 4).cut (grid3.coords t) ((dat3 (F := Ideal) V c).after 4 t) = _
  rw [after3_4]
  unfold out3_4
  rw [View.canon_unit_zero hz3]
  simp only [View.ld_unit_zero (S := S5000x128) hz3, View.ld_unit_zero (S := S128x128) hz3, View.ld_unit_zero (S := S1x128) hz3]
  obtain ⟨e00, e01, e10, e11, e20, e21, e30, e31, e40, e41⟩ := blockIndex3 t
  funext j
  have hj0 : (j 0).val < 5000 := (j 0).isLt
  have hj1 : (j 1).val < 128 := (j 1).isLt
  have ht : t.val < 20 := lt_of_lt_of_eq t.isLt N_3
  have hjj : (j : S5000x128.Idx) = ix2 (⟨(j 0).val, hj0⟩ : Fin 5000) (⟨(j 1).val, hj1⟩ : Fin 128) :=
    funext fun a => by match a with | ⟨0, _⟩ => rfl | ⟨1, _⟩ => rfl
  have hemb : (((cfg3.win 4).blk t).view.emb j : S100000x128.Idx)
      = ix2 (⟨t.val * 5000 + (j 0).val, by omega⟩ : Fin 100000) (⟨(j 1).val, hj1⟩ : Fin 128) := by
    funext a; apply Fin.ext
    match a with
    | ⟨0, _⟩ => show win3_4.index t (0 : Fin 2) * 5000 + 1 * (j 0).val = t.val * 5000 + (j 0).val; rw [e40]; omega
    | ⟨1, _⟩ => show win3_4.index t (1 : Fin 2) * 128 + 1 * (j 1).val = (j 1).val; rw [e41]; omega
  show k3_pay1 (F := Ideal) (iblk3 V c 0 t) (iblk3 V c 1 t) (iblk3 V c 2 t) (iblk3 V c 3 t) j
    = Cert.Spec.nodeRows (V c main_v29) (V c main_v17) (V c main_arg10) (V c main_v30) (((cfg3.win 4).blk t).view.emb j)
  rw [hemb]
  refine (congrArg (k3_pay1 (F := Ideal) (iblk3 V c 0 t) (iblk3 V c 1 t) (iblk3 V c 2 t) (iblk3 V c 3 t)) hjj).trans ?_
  refine rows3_eq (V c main_v29) (V c main_v17) (V c main_arg10) (V c main_v30)
    (iblk3 V c 0 t) (iblk3 V c 1 t) (iblk3 V c 2 t) (iblk3 V c 3 t) t.val ht ?_ ?_ ?_ ?_
    (⟨(j 0).val, hj0⟩ : Fin 5000) (⟨(j 1).val, hj1⟩ : Fin 128)
  · intro p k
    have he : (((cfg3.win 0).blk t).view.emb (ix2 p k) : S100000x128.Idx) = ix2 (⟨t.val * 5000 + p.val, by omega⟩ : Fin 100000) k := by
      funext a; apply Fin.ext
      match a with
      | ⟨0, _⟩ => show win3_0.index t (0 : Fin 2) * 5000 + 1 * p.val = t.val * 5000 + p.val; rw [e00]; omega
      | ⟨1, _⟩ => show win3_0.index t (1 : Fin 2) * 128 + 1 * k.val = k.val; rw [e01]; omega
    show V c main_v29 (((cfg3.win 0).blk t).view.emb (ix2 p k)) = _
    rw [he]
  · intro p k
    have he : (((cfg3.win 1).blk t).view.emb (ix2 p k) : S100000x128.Idx) = ix2 (⟨t.val * 5000 + p.val, by omega⟩ : Fin 100000) k := by
      funext a; apply Fin.ext
      match a with
      | ⟨0, _⟩ => show win3_1.index t (0 : Fin 2) * 5000 + 1 * p.val = t.val * 5000 + p.val; rw [e10]; omega
      | ⟨1, _⟩ => show win3_1.index t (1 : Fin 2) * 128 + 1 * k.val = k.val; rw [e11]; omega
    show V c main_v17 (((cfg3.win 1).blk t).view.emb (ix2 p k)) = _
    rw [he]
  · funext y
    have he : (((cfg3.win 2).blk t).view.emb y : S128x128.Idx) = y := by
      funext a; apply Fin.ext
      match a with
      | ⟨0, _⟩ => show win3_2.index t (0 : Fin 2) * 128 + 1 * (y 0).val = (y 0).val; rw [e20]; omega
      | ⟨1, _⟩ => show win3_2.index t (1 : Fin 2) * 128 + 1 * (y 1).val = (y 1).val; rw [e21]; omega
    show V c main_arg10 (((cfg3.win 2).blk t).view.emb y) = _
    rw [he]
  · funext y
    have he : (((cfg3.win 3).blk t).view.emb y : S1x128.Idx) = y := by
      funext a; apply Fin.ext
      match a with
      | ⟨0, _⟩ => show win3_3.index t (0 : Fin 2) * 1 + 1 * (y 0).val = (y 0).val; rw [e30]; omega
      | ⟨1, _⟩ => show win3_3.index t (1 : Fin 2) * 128 + 1 * (y 1).val = (y 1).val; rw [e31]; omega
    show V c main_v30 (((cfg3.win 3).blk t).view.emb y) = _
    rw [he]

/-- An index of the output array is in point `t`'s block iff each coordinate is in the block's range on its axis. -/
theorem inBlock3_iff (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v31).slice (win3_4.rect t)).set ↔ _
  rw [View.set_slice_whole, Rect.mem_set_unit]
  exact Iff.rfl

/-- The twenty row blocks cover the array: row `r` lies in the block of point `r / 5000`. -/
theorem covered3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, e40, e41⟩ := blockIndex3 t
  refine ⟨t, flush3_4 t, ?_⟩
  rw [inBlock3_iff]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 128 ≤ (i 1).val ∧ (i 1).val < win3_4.index t (1 : Fin 2) * 128 + 128
    rw [e41]; omega

/-- The output array after region 3 is the node update of the region's four input arrays as it finds them. -/
theorem final3 (c : Dev nD) : (dat3 (F := Ideal) V c).arrAt 4 cfg3.N
    = Cert.Spec.nodeRows (V c main_v29) (V c main_v17) (V c main_arg10) (V c main_v30) :=
  (dat3 (F := Ideal) V c).arrAt_eq_of_cover 4 _ (fun t _ => written3_eq V c t) covered3

end Cert.KernelIdeal.RegionValue

end
-- ==== Proof.Node5.lean ====
/-
  Region 5 (a node update) of the three-layer network, read as ONE function of the arrays the region finds.

  The region walks the 100000 × 128 aggregate and feature arrays in twenty blocks of 5000 rows. At each block
  it adds the two row blocks, multiplies the sum by the whole 128 × 128 weight matrix, adds the bias row to every
  row and clamps at zero. Row `r` of the result therefore depends on row `r` of the two inputs, on the whole
  weight matrix and on the bias row, and on nothing else: entry `(r, q)` is
  `max ((∑ k, (agg[r, k] + x[r, k]) * W[k, q]) + b[0, q]) 0`, the contraction of the block product being the sum
  over `k`. Rounding the two factors to a narrower format is the identity on the extended reals, and the
  product accumulates into zero, so nothing else is left of the block product.

  The steps: the block product at an entry as the sum over the contraction index; the body's value at an entry
  of a block; the same value in terms of the arrays the blocks are cut from; what a grid point writes back
  as its block of the whole-array function; the twenty blocks cover the array; hence the array.
-/
import proofs.«117926_j9294309228817_1_alg».proof.Proof.Gen.KernelIdeal.Frame
import proofs.«117926_j9294309228817_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an entry -/

/-- The left operand's index at output entry `i` and contraction index `q`: row `i 0`, … -/
theorem lhsRow5 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contraction coordinate. -/
theorem lhsCol5 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: row the contraction coordinate, … -/
theorem rhsRow5 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhsCol5 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] block times a [128, 128] matrix into the zero accumulator, at entry `(p, q)`: the sum over
    `k` of `l[p, k] * r[k, q]` (the one-axis contraction index re-indexed by its coordinate). -/
theorem blockProduct5_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsRow5 _ _
    | ⟨1, _⟩ => exact (lhsCol5 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsRow5 _ _).trans hk
    | ⟨1, _⟩ => exact rhsCol5 _ _)
  rw [el, er]

/-! ## The body's value at an entry of a block -/

/-- The body's value at entry `(p, q)` of a block, from the four loaded blocks: the casts to the same shape
    and the narrowing of the two factors are identities on the extended reals, the block product is the sum
    over `k`, the bias row is read at column `q`, and the zero the result is clamped at is the real zero. -/
theorem body5_apply (x0 x1 : Vec Ideal S5000x128 .f32) (x2 : Vec Ideal S128x128 .f32) (x3 : Vec Ideal S1x128 .f32)
    (p : Fin 5000) (q : Fin 128) :
    k5_pay1 (F := Ideal) x0 x1 x2 x3 (ix2 p q)
      = max ((∑ k : Fin 128, (x0 (ix2 p k) + x1 (ix2 p k)) * x2 (ix2 k q)) + x3 (ix2 0 q)) 0 := by
  unfold k5_pay1
  show max (matmul (F := Ideal) dot_S5000x128_S128x128_S5000x128_1_0_0_1_n_n none
        (truncf .bf16 (addf (shapeCast S5000x128 x0 shapeCasts_S5000x128_S5000x128) (shapeCast S5000x128 x1 shapeCasts_S5000x128_S5000x128)) bitsLt_bf16_f32)
        (truncf .bf16 x2 bitsLt_bf16_f32) (constant (F := Ideal) S5000x128 .f32 0x00000000#32) (ix2 p q)
      + broadcastTo S5000x128 (shapeCast S1x128 x3 shapeCasts_S1x128_S1x128) broadcasts_S1x128_S5000x128 (ix2 p q))
    (Ideal.ofBits .f32 0x00000000#32) = _
  rw [blockProduct5_apply, shapeCast_self, shapeCast_self, shapeCast_self, broadcastTo_1b_ab_apply, Ideal.ofBits_zero_f32]
  rfl

/-- The same value in terms of the arrays the blocks are cut from: when the two row blocks are rows
    `t * 5000 + p` of `A0` and `A1` and the weight matrix and the bias row are whole, entry `(p, q)` of the block is
    the node update at row `t * 5000 + p`, column `q`. -/
theorem rows5_eq (A0 A1 : FVec Ideal S100000x128 .f32) (W : FVec Ideal S128x128 .f32) (b : FVec Ideal S1x128 .f32)
    (x0 x1 : Vec Ideal S5000x128 .f32) (x2 : Vec Ideal S128x128 .f32) (x3 : Vec Ideal S1x128 .f32)
    (t : Nat) (ht : t < 20)
    (h0 : ∀ (p : Fin 5000) (k : Fin 128), x0 (ix2 p k) = A0 (ix2 (⟨t * 5000 + p.val, by omega⟩ : Fin 100000) k))
    (h1 : ∀ (p : Fin 5000) (k : Fin 128), x1 (ix2 p k) = A1 (ix2 (⟨t * 5000 + p.val, by omega⟩ : Fin 100000) k))
    (h2 : x2 = W) (h3 : x3 = b) (p : Fin 5000) (q : Fin 128) :
    k5_pay1 (F := Ideal) x0 x1 x2 x3 (ix2 p q)
      = Cert.Spec.nodeRows A0 A1 W b (ix2 (⟨t * 5000 + p.val, by omega⟩ : Fin 100000) q) := by
  rw [body5_apply, Cert.Spec.nodeRows_apply]
  subst h2 h3
  simp only [h0, h1]

/-! ## From blocks to the array -/

variable (V : (c : Dev nD) → (b : Ref sig .tc) → Buf (Elt Ideal) ((c : Thread nD τ).loc b))

theorem hz5 : (![0, 0] : Fin 2 → Nat) = fun _ => 0 := funext fun a => by fin_cases a <;> rfl

/-- The block indices over the grid: at point `t` the two row-block inputs and the output are at block row
    `t`, block column 0; the weight matrix and the bias row are block (0, 0) at every point. -/
theorem blockIndex5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` — rows `5000 t … 5000 t + 4999`, every column — of the node update
    of the four arrays as the region finds them: an element of a block sits in its array at block index times
    block size plus its coordinate in the block, on each axis. -/
theorem written5_eq (c : Dev nD) (t : Fin cfg5.N) :
    (dat5 (F := Ideal) V c).flushed 4 t = ((cfg5.win 4).blk t).view.read (Elt Ideal)
      (Cert.Spec.nodeRows (V c main_v43) (V c main_v31) (V c main_arg14) (V c main_v44)) := by
  show (cfg5.win 4).cut (grid5.coords t) ((dat5 (F := Ideal) V c).after 4 t) = _
  rw [after5_4]
  unfold out5_4
  rw [View.canon_unit_zero hz5]
  simp only [View.ld_unit_zero (S := S5000x128) hz5, View.ld_unit_zero (S := S128x128) hz5, View.ld_unit_zero (S := S1x128) hz5]
  obtain ⟨e00, e01, e10, e11, e20, e21, e30, e31, e40, e41⟩ := blockIndex5 t
  funext j
  have hj0 : (j 0).val < 5000 := (j 0).isLt
  have hj1 : (j 1).val < 128 := (j 1).isLt
  have ht : t.val < 20 := lt_of_lt_of_eq t.isLt N_5
  have hjj : (j : S5000x128.Idx) = ix2 (⟨(j 0).val, hj0⟩ : Fin 5000) (⟨(j 1).val, hj1⟩ : Fin 128) :=
    funext fun a => by match a with | ⟨0, _⟩ => rfl | ⟨1, _⟩ => rfl
  have hemb : (((cfg5.win 4).blk t).view.emb j : S100000x128.Idx)
      = ix2 (⟨t.val * 5000 + (j 0).val, by omega⟩ : Fin 100000) (⟨(j 1).val, hj1⟩ : Fin 128) := by
    funext a; apply Fin.ext
    match a with
    | ⟨0, _⟩ => show win5_4.index t (0 : Fin 2) * 5000 + 1 * (j 0).val = t.val * 5000 + (j 0).val; rw [e40]; omega
    | ⟨1, _⟩ => show win5_4.index t (1 : Fin 2) * 128 + 1 * (j 1).val = (j 1).val; rw [e41]; omega
  show k5_pay1 (F := Ideal) (iblk5 V c 0 t) (iblk5 V c 1 t) (iblk5 V c 2 t) (iblk5 V c 3 t) j
    = Cert.Spec.nodeRows (V c main_v43) (V c main_v31) (V c main_arg14) (V c main_v44) (((cfg5.win 4).blk t).view.emb j)
  rw [hemb]
  refine (congrArg (k5_pay1 (F := Ideal) (iblk5 V c 0 t) (iblk5 V c 1 t) (iblk5 V c 2 t) (iblk5 V c 3 t)) hjj).trans ?_
  refine rows5_eq (V c main_v43) (V c main_v31) (V c main_arg14) (V c main_v44)
    (iblk5 V c 0 t) (iblk5 V c 1 t) (iblk5 V c 2 t) (iblk5 V c 3 t) t.val ht ?_ ?_ ?_ ?_
    (⟨(j 0).val, hj0⟩ : Fin 5000) (⟨(j 1).val, hj1⟩ : Fin 128)
  · intro p k
    have he : (((cfg5.win 0).blk t).view.emb (ix2 p k) : S100000x128.Idx) = ix2 (⟨t.val * 5000 + p.val, by omega⟩ : Fin 100000) k := by
      funext a; apply Fin.ext
      match a with
      | ⟨0, _⟩ => show win5_0.index t (0 : Fin 2) * 5000 + 1 * p.val = t.val * 5000 + p.val; rw [e00]; omega
      | ⟨1, _⟩ => show win5_0.index t (1 : Fin 2) * 128 + 1 * k.val = k.val; rw [e01]; omega
    show V c main_v43 (((cfg5.win 0).blk t).view.emb (ix2 p k)) = _
    rw [he]
  · intro p k
    have he : (((cfg5.win 1).blk t).view.emb (ix2 p k) : S100000x128.Idx) = ix2 (⟨t.val * 5000 + p.val, by omega⟩ : Fin 100000) k := by
      funext a; apply Fin.ext
      match a with
      | ⟨0, _⟩ => show win5_1.index t (0 : Fin 2) * 5000 + 1 * p.val = t.val * 5000 + p.val; rw [e10]; omega
      | ⟨1, _⟩ => show win5_1.index t (1 : Fin 2) * 128 + 1 * k.val = k.val; rw [e11]; omega
    show V c main_v31 (((cfg5.win 1).blk t).view.emb (ix2 p k)) = _
    rw [he]
  · funext y
    have he : (((cfg5.win 2).blk t).view.emb y : S128x128.Idx) = y := by
      funext a; apply Fin.ext
      match a with
      | ⟨0, _⟩ => show win5_2.index t (0 : Fin 2) * 128 + 1 * (y 0).val = (y 0).val; rw [e20]; omega
      | ⟨1, _⟩ => show win5_2.index t (1 : Fin 2) * 128 + 1 * (y 1).val = (y 1).val; rw [e21]; omega
    show V c main_arg14 (((cfg5.win 2).blk t).view.emb y) = _
    rw [he]
  · funext y
    have he : (((cfg5.win 3).blk t).view.emb y : S1x128.Idx) = y := by
      funext a; apply Fin.ext
      match a with
      | ⟨0, _⟩ => show win5_3.index t (0 : Fin 2) * 1 + 1 * (y 0).val = (y 0).val; rw [e30]; omega
      | ⟨1, _⟩ => show win5_3.index t (1 : Fin 2) * 128 + 1 * (y 1).val = (y 1).val; rw [e31]; omega
    show V c main_v44 (((cfg5.win 3).blk t).view.emb y) = _
    rw [he]

/-- An index of the output array is in point `t`'s block iff each coordinate is in the block's range on its axis. -/
theorem inBlock5_iff (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v45).slice (win5_4.rect t)).set ↔ _
  rw [View.set_slice_whole, Rect.mem_set_unit]
  exact Iff.rfl

/-- The twenty row blocks cover the array: row `r` lies in the block of point `r / 5000`. -/
theorem covered5 (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, -, -, -, -, e40, e41⟩ := blockIndex5 t
  refine ⟨t, flush5_4 t, ?_⟩
  rw [inBlock5_iff]
  intro a
  match a with
  | ⟨0, _⟩ =>
    show win5_4.index t (0 : Fin 2) * 5000 ≤ (i 0).val ∧ (i 0).val < win5_4.index t (0 : Fin 2) * 5000 + 5000
    rw [e40, ht]; omega
  | ⟨1, _⟩ =>
    show win5_4.index t (1 : Fin 2) * 128 ≤ (i 1).val ∧ (i 1).val < win5_4.index t (1 : Fin 2) * 128 + 128
    rw [e41]; omega

/-- The output array after region 5 is the node update of the region's four input arrays as it finds them. -/
theorem final5 (c : Dev nD) : (dat5 (F := Ideal) V c).arrAt 4 cfg5.N
    = Cert.Spec.nodeRows (V c main_v43) (V c main_v31) (V c main_arg14) (V c main_v44) :=
  (dat5 (F := Ideal) V c).arrAt_eq_of_cover 4 _ (fun t _ => written5_eq V c t) covered5

end Cert.KernelIdeal.RegionValue

end
-- ==== Proof.RefEdge.lean ====
/-
  The reference's edge messages, layer by layer.

  In each layer the reference forms, for every edge `e` and feature `j`, the gathered source row entry plus
  `(edge_attr · We)[e, j] + be[j]`, and clamps the sum at zero. The product `edge_attr · We` contracts an axis of
  extent one, so its sum has the single term `edge_attr[e, 0] * We[0, j]`; the bias is broadcast first to a row
  `[1, d]` and then down the edges, so at `(e, j)` it is the row's entry `(0, j)`; and the clamp's zero vector is
  the float word `0`, the extended real `0`. Entry by entry this is the specification's `edgeRows` of the gathered
  rows, the edge attributes, the weight row and the bias row. The gather itself is never opened: it enters both
  sides as the same array.
-/
import proofs.«117926_j9294309228817_1_alg».proof.Proof.Gen.ReferenceIdeal.Read
import proofs.«117926_j9294309228817_1_alg».proof.Proof.Spec

noncomputable section

namespace Cert.ReferenceIdeal.RefValue

open Cert.ReferenceIdeal Cert.ReferenceIdeal.Read Idealize.ShloMosaic Idealize.ShloMosaic.ValueIdx

/-- Layer 1 (feature width 7): the edge stage is `edgeRows` of the gathered input rows. -/
theorem ref_edge1 (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) :
    val_main_v16 (F := Ideal) x0 x1 x2 x4 x5
      = Cert.Spec.edgeRows (val_main_v14 (F := Ideal) x0 x1) x2 x4 (val_main_v5 (F := Ideal) x5) := by
  funext i
  obtain ⟨p, q, rfl⟩ : ∃ (p : Fin 1600000) (q : Fin 7), i = ix2 p q := ⟨i 0, i 1, eq_ix2 i⟩
  rw [Cert.Spec.edgeRows_apply]
  rw [val_main_v16_apply, val_main_v15_apply, val_main_v7_apply, val_main_v4_apply, val_main_v6_apply,
    val_main_call0_v0_apply, val_main_call0_cst_apply]
  generalize val_main_v14 (F := Ideal) x0 x1 = g
  generalize val_main_v5 (F := Ideal) x5 = b
  have hl : lidx_main_v4 (ix2 p q) 0 = ix2 p 0 :=
    funext fun a => Fin.ext (by match a with | ⟨0, _⟩ => rfl | ⟨1, _⟩ => rfl)
  have hr : ridx_main_v4 (ix2 p q) 0 = ix2 0 q :=
    funext fun a => Fin.ext (by match a with | ⟨0, _⟩ => rfl | ⟨1, _⟩ => rfl)
  have hb : idx_main_v6 (ix2 p q) = ix2 0 q :=
    funext fun a => Fin.ext (by match a with | ⟨0, _⟩ => rfl | ⟨1, _⟩ => rfl)
  rw [Fin.sum_univ_one, hl, hr, hb]
  simp only [Ideal.maximumf_def, Ideal.addf_def, Ideal.ofBits_def, Ideal.ofBits_zero_f32]

/-- Layer 2 (feature width 128): the edge stage is `edgeRows` of the rows gathered from layer 1's node update. -/
theorem ref_edge2 (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) :
    val_main_v41 (F := Ideal) x0 x1 x2 x4 x5 x6 x7 x8 x9
      = Cert.Spec.edgeRows (val_main_v39 (F := Ideal) x0 x1 x2 x4 x5 x6 x7) x2 x8 (val_main_v30 (F := Ideal) x9) := by
  funext i
  obtain ⟨p, q, rfl⟩ : ∃ (p : Fin 1600000) (q : Fin 128), i = ix2 p q := ⟨i 0, i 1, eq_ix2 i⟩
  rw [Cert.Spec.edgeRows_apply]
  rw [val_main_v41_apply, val_main_v40_apply, val_main_v32_apply, val_main_v29_apply, val_main_v31_apply,
    val_main_call3_v0_apply, val_main_call3_cst_apply]
  generalize val_main_v39 (F := Ideal) x0 x1 x2 x4 x5 x6 x7 = g
  generalize val_main_v30 (F := Ideal) x9 = b
  have hl : lidx_main_v29 (ix2 p q) 0 = ix2 p 0 :=
    funext fun a => Fin.ext (by match a with | ⟨0, _⟩ => rfl | ⟨1, _⟩ => rfl)
  have hr : ridx_main_v29 (ix2 p q) 0 = ix2 0 q :=
    funext fun a => Fin.ext (by match a with | ⟨0, _⟩ => rfl | ⟨1, _⟩ => rfl)
  have hb : idx_main_v31 (ix2 p q) = ix2 0 q :=
    funext fun a => Fin.ext (by match a with | ⟨0, _⟩ => rfl | ⟨1, _⟩ => rfl)
  rw [Fin.sum_univ_one, hl, hr, hb]
  simp only [Ideal.maximumf_def, Ideal.addf_def, Ideal.ofBits_def, Ideal.ofBits_zero_f32]

/-- Layer 3 (feature width 128): the edge stage is `edgeRows` of the rows gathered from layer 2's node update. -/
theorem ref_edge3 (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) :
    val_main_v66 (F := Ideal) x0 x1 x2 x4 x5 x6 x7 x8 x9 x10 x11 x12 x13
      = Cert.Spec.edgeRows (val_main_v64 (F := Ideal) x0 x1 x2 x4 x5 x6 x7 x8 x9 x10 x11) x2 x12 (val_main_v55 (F := Ideal) x13) := by
  funext i
  obtain ⟨p, q, rfl⟩ : ∃ (p : Fin 1600000) (q : Fin 128), i = ix2 p q := ⟨i 0, i 1, eq_ix2 i⟩
  rw [Cert.Spec.edgeRows_apply]
  rw [val_main_v66_apply, val_main_v65_apply, val_main_v57_apply, val_main_v54_apply, val_main_v56_apply,
    val_main_call6_v0_apply, val_main_call6_cst_apply]
  generalize val_main_v64 (F := Ideal) x0 x1 x2 x4 x5 x6 x7 x8 x9 x10 x11 = g
  generalize val_main_v55 (F := Ideal) x13 = b
  have hl : lidx_main_v54 (ix2 p q) 0 = ix2 p 0 :=
    funext fun a => Fin.ext (by match a with | ⟨0, _⟩ => rfl | ⟨1, _⟩ => rfl)
  have hr : ridx_main_v54 (ix2 p q) 0 = ix2 0 q :=
    funext fun a => Fin.ext (by match a with | ⟨0, _⟩ => rfl | ⟨1, _⟩ => rfl)
  have hb : idx_main_v56 (ix2 p q) = ix2 0 q :=
    funext fun a => Fin.ext (by match a with | ⟨0, _⟩ => rfl | ⟨1, _⟩ => rfl)
  rw [Fin.sum_univ_one, hl, hr, hb]
  simp only [Ideal.maximumf_def, Ideal.addf_def, Ideal.ofBits_def, Ideal.ofBits_zero_f32]

end Cert.ReferenceIdeal.RefValue

end
-- ==== Proof.RefNode.lean ====
/-
  The reference's node updates, layer by layer.

  In each layer the reference adds to the summed messages `agg` the node's own features multiplied by a vector of
  ones, multiplies the sum by the weight matrix (a contraction over the feature axis), adds the bias — broadcast
  first to a row `[1, o]` and then down the nodes, so at `(n, j)` it is the row's entry `(0, j)` — and clamps at
  zero; layers 1 and 2 clamp a second time. Two laws of the extended reals turn this into the specification's
  `nodeRows`: `1 * x = x` (the ones vector is the float word of the real `1`), and `max (max y 0) 0 = max y 0`
  (the clamp's zero vector is the float word `0`, the extended real `0`). The scatter-add that produces `agg` and
  the previous layer's update are never opened: they enter both sides as the same arrays.
-/
import proofs.«117926_j9294309228817_1_alg».proof.Proof.Gen.ReferenceIdeal.Read
import proofs.«117926_j9294309228817_1_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx

/-- Layer 1: the node stage is `nodeRows` of the summed messages and the input features (clamped twice). -/
theorem ref_node1 (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) :
    val_main_v28 (F := Ideal) x0 x1 x2 x4 x5 x6 x7
      = Cert.Spec.nodeRows (val_main_v19 (F := Ideal) x0 x1 x2 x4 x5) x0 x6 (val_main_v24 (F := Ideal) x7) := by
  funext i
  obtain ⟨p, q, rfl⟩ : ∃ (p : Fin 100000) (q : Fin 128), i = ix2 p q := ⟨i 0, i 1, eq_ix2 i⟩
  rw [Cert.Spec.nodeRows_apply]
  rw [val_main_v28_apply, val_main_v27_apply, val_main_v26_apply, val_main_v23_apply, val_main_v25_apply,
    val_main_call2_v0_apply, val_main_call2_cst_apply, val_main_call1_v0_apply, val_main_call1_cst_apply]
  have hterm : ∀ k : Fin 7, (val_main_v22 (F := Ideal) x0 x1 x2 x4 x5) (lidx_main_v23 (ix2 p q) k) * x6 (ridx_main_v23 (ix2 p q) k)
      = ((val_main_v19 (F := Ideal) x0 x1 x2 x4 x5) (ix2 p k) + x0 (ix2 p k)) * x6 (ix2 k q) := by
    intro k
    have hl : lidx_main_v23 (ix2 p q) k = ix2 p k :=
      funext fun a => Fin.ext (by match a with | ⟨0, _⟩ => rfl | ⟨1, _⟩ => rfl)
    have hr : ridx_main_v23 (ix2 p q) k = ix2 k q :=
      funext fun a => Fin.ext (by match a with | ⟨0, _⟩ => rfl | ⟨1, _⟩ => rfl)
    rw [hl, hr, val_main_v22_apply, val_main_v21_apply, val_main_v20_apply, val_main_cst_1_apply]
    simp only [Ideal.addf_def, Ideal.mulf_def, Ideal.ofBits_def, Ideal.ofBits_one_f32, one_mul]
  have hb : idx_main_v25 (ix2 p q) = ix2 0 q :=
    funext fun a => Fin.ext (by match a with | ⟨0, _⟩ => rfl | ⟨1, _⟩ => rfl)
  rw [Finset.sum_congr rfl fun k _ => hterm k, hb]
  generalize val_main_v19 (F := Ideal) x0 x1 x2 x4 x5 = s
  generalize val_main_v24 (F := Ideal) x7 = b
  simp only [Ideal.maximumf_def, Ideal.addf_def, Ideal.ofBits_def, Ideal.ofBits_zero_f32]
  rw [max_assoc, max_self]

/-- Layer 2: the node stage is `nodeRows` of the summed messages and layer 1's update (clamped twice). -/
theorem ref_node2 (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v53 (F := Ideal) x0 x1 x2 x4 x5 x6 x7 x8 x9 x10 x11
      = Cert.Spec.nodeRows (val_main_v44 (F := Ideal) x0 x1 x2 x4 x5 x6 x7 x8 x9) (val_main_v28 (F := Ideal) x0 x1 x2 x4 x5 x6 x7) x10 (val_main_v49 (F := Ideal) x11) := by
  funext i
  obtain ⟨p, q, rfl⟩ : ∃ (p : Fin 100000) (q : Fin 128), i = ix2 p q := ⟨i 0, i 1, eq_ix2 i⟩
  rw [Cert.Spec.nodeRows_apply]
  rw [val_main_v53_apply, val_main_v52_apply, val_main_v51_apply, val_main_v48_apply, val_main_v50_apply,
    val_main_call5_v0_apply, val_main_call5_cst_apply, val_main_call4_v0_apply, val_main_call4_cst_apply]
  have hterm : ∀ k : Fin 128, (val_main_v47 (F := Ideal) x0 x1 x2 x4 x5 x6 x7 x8 x9) (lidx_main_v48 (ix2 p q) k) * x10 (ridx_main_v48 (ix2 p q) k)
      = ((val_main_v44 (F := Ideal) x0 x1 x2 x4 x5 x6 x7 x8 x9) (ix2 p k) + (val_main_v28 (F := Ideal) x0 x1 x2 x4 x5 x6 x7) (ix2 p k)) * x10 (ix2 k q) := by
    intro k
    have hl : lidx_main_v48 (ix2 p q) k = ix2 p k :=
      funext fun a => Fin.ext (by match a with | ⟨0, _⟩ => rfl | ⟨1, _⟩ => rfl)
    have hr : ridx_main_v48 (ix2 p q) k = ix2 k q :=
      funext fun a => Fin.ext (by match a with | ⟨0, _⟩ => rfl | ⟨1, _⟩ => rfl)
    rw [hl, hr, val_main_v47_apply, val_main_v46_apply, val_main_v45_apply, val_main_cst_5_apply]
    simp only [Ideal.addf_def, Ideal.mulf_def, Ideal.ofBits_def, Ideal.ofBits_one_f32, one_mul]
  have hb : idx_main_v50 (ix2 p q) = ix2 0 q :=
    funext fun a => Fin.ext (by match a with | ⟨0, _⟩ => rfl | ⟨1, _⟩ => rfl)
  rw [Finset.sum_congr rfl fun k _ => hterm k, hb]
  generalize val_main_v44 (F := Ideal) x0 x1 x2 x4 x5 x6 x7 x8 x9 = s
  generalize val_main_v28 (F := Ideal) x0 x1 x2 x4 x5 x6 x7 = h
  generalize val_main_v49 (F := Ideal) x11 = b
  simp only [Ideal.maximumf_def, Ideal.addf_def, Ideal.ofBits_def, Ideal.ofBits_zero_f32]
  rw [max_assoc, max_self]

/-- Layer 3: the node stage is `nodeRows` of the summed messages and layer 2's update (clamped once). -/
theorem ref_node3 (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    val_main_v77 (F := Ideal) x0 x1 x2 x4 x5 x6 x7 x8 x9 x10 x11 x12 x13 x14 x15
      = Cert.Spec.nodeRows (val_main_v69 (F := Ideal) x0 x1 x2 x4 x5 x6 x7 x8 x9 x10 x11 x12 x13) (val_main_v53 (F := Ideal) x0 x1 x2 x4 x5 x6 x7 x8 x9 x10 x11) x14 (val_main_v74 (F := Ideal) x15) := by
  funext i
  obtain ⟨p, q, rfl⟩ : ∃ (p : Fin 100000) (q : Fin 128), i = ix2 p q := ⟨i 0, i 1, eq_ix2 i⟩
  rw [Cert.Spec.nodeRows_apply]
  rw [val_main_v77_apply, val_main_v76_apply, val_main_v73_apply, val_main_v75_apply,
    val_main_call7_v0_apply, val_main_call7_cst_apply]
  have hterm : ∀ k : Fin 128, (val_main_v72 (F := Ideal) x0 x1 x2 x4 x5 x6 x7 x8 x9 x10 x11 x12 x13) (lidx_main_v73 (ix2 p q) k) * x14 (ridx_main_v73 (ix2 p q) k)
      = ((val_main_v69 (F := Ideal) x0 x1 x2 x4 x5 x6 x7 x8 x9 x10 x11 x12 x13) (ix2 p k) + (val_main_v53 (F := Ideal) x0 x1 x2 x4 x5 x6 x7 x8 x9 x10 x11) (ix2 p k)) * x14 (ix2 k q) := by
    intro k
    have hl : lidx_main_v73 (ix2 p q) k = ix2 p k :=
      funext fun a => Fin.ext (by match a with | ⟨0, _⟩ => rfl | ⟨1, _⟩ => rfl)
    have hr : ridx_main_v73 (ix2 p q) k = ix2 k q :=
      funext fun a => Fin.ext (by match a with | ⟨0, _⟩ => rfl | ⟨1, _⟩ => rfl)
    rw [hl, hr, val_main_v72_apply, val_main_v71_apply, val_main_v70_apply, val_main_cst_9_apply]
    simp only [Ideal.addf_def, Ideal.mulf_def, Ideal.ofBits_def, Ideal.ofBits_one_f32, one_mul]
  have hb : idx_main_v75 (ix2 p q) = ix2 0 q :=
    funext fun a => Fin.ext (by match a with | ⟨0, _⟩ => rfl | ⟨1, _⟩ => rfl)
  rw [Finset.sum_congr rfl fun k _ => hterm k, hb]
  generalize val_main_v69 (F := Ideal) x0 x1 x2 x4 x5 x6 x7 x8 x9 x10 x11 x12 x13 = s
  generalize val_main_v53 (F := Ideal) x0 x1 x2 x4 x5 x6 x7 x8 x9 x10 x11 = h
  generalize val_main_v74 (F := Ideal) x15 = b
  simp only [Ideal.maximumf_def, Ideal.addf_def, Ideal.ofBits_def, Ideal.ofBits_zero_f32]

end Cert.ReferenceIdeal.RefValue

end
-- ==== Proof.Bridge.lean ====
/-
  The reference program's stages are the network's stages.

  The reference computes, per layer, the edge messages and the node features by host operations; read at an index
  these are `edgeRows` and `nodeRows` of the stages feeding them. What feeds them — the index columns built from the
  edge list, the gather, the scatter-add into zeros, the bias rows — are the very host operations the kernel program
  runs between its regions, so stage by stage the reference's values are the functions of `Cert.Stages`, up to the
  pooled result. One small law is used: a bias vector broadcast along the second axis into a one-row matrix is the
  vector reshaped to one row (both read entry (0, j) at j).
-/
import proofs.«117926_j9294309228817_1_alg».proof.Proof.RefEdge
import proofs.«117926_j9294309228817_1_alg».proof.Proof.RefNode
import proofs.«117926_j9294309228817_1_alg».proof.Proof.Stages
import Idealize.ShloMosaic.Lib.Pipeline.Value
import Idealize.ShloMosaic.Lib.ValueIdx

noncomputable section

namespace Cert.ReferenceIdeal.RefValue

open Cert.ReferenceIdeal Cert.ReferenceIdeal.Read Cert.Stages Idealize.ShloMosaic Idealize.ShloMosaic.ValueIdx

/-! ## A bias vector as a one-row matrix: broadcast along axis 1, or reshaped -/

theorem bcastRow_eq_reshape {d : Nat} (hd : d ≠ 1) (b : (⟨1, ![d]⟩ : Shape).Idx → Ideal .f32)
    (h1 : (⟨1, ![d]⟩ : Shape).BroadcastsInDim ⟨2, ![1, d]⟩ ![1]) (h2 : (⟨1, ![d]⟩ : Shape).ShapeCasts ⟨2, ![1, d]⟩) :
    broadcastInDim ⟨2, ![1, d]⟩ ![1] h1 b = shapeCast ⟨2, ![1, d]⟩ b h2 := by
  funext j
  rw [shapeCast_addUnit_apply (n := 1) ![d] b h2 j]
  refine broadcastInDim_apply ![1] h1 b j (fun a => j a.succ) fun a => ?_
  match a with
  | ⟨0, _⟩ =>
    show (j 1).val = if d = 1 then 0 else (j 1).val
    rw [if_neg hd]

theorem row7_eq (x5 : (⟨S7, .f32⟩ : BufTy).Contents (Elt Ideal)) : val_main_v5 (F := Ideal) x5 = row7 x5 :=
  bcastRow_eq_reshape (by decide) x5 _ _
theorem row128_eq_v24 (x : (⟨S128, .f32⟩ : BufTy).Contents (Elt Ideal)) : val_main_v24 (F := Ideal) x = row128 x := bcastRow_eq_reshape (by decide) x _ _
theorem row128_eq_v30 (x : (⟨S128, .f32⟩ : BufTy).Contents (Elt Ideal)) : val_main_v30 (F := Ideal) x = row128 x := bcastRow_eq_reshape (by decide) x _ _
theorem row128_eq_v49 (x : (⟨S128, .f32⟩ : BufTy).Contents (Elt Ideal)) : val_main_v49 (F := Ideal) x = row128 x := bcastRow_eq_reshape (by decide) x _ _
theorem row128_eq_v55 (x : (⟨S128, .f32⟩ : BufTy).Contents (Elt Ideal)) : val_main_v55 (F := Ideal) x = row128 x := bcastRow_eq_reshape (by decide) x _ _
theorem row128_eq_v74 (x : (⟨S128, .f32⟩ : BufTy).Contents (Elt Ideal)) : val_main_v74 (F := Ideal) x = row128 x := bcastRow_eq_reshape (by decide) x _ _

/-! ## The shared host pieces: the same operations in both programs -/

theorem srcCol_eq_v13 (x1 : (⟨S2x1600000, .i32⟩ : BufTy).Contents (Elt Ideal)) : val_main_v13 (F := Ideal) x1 = srcCol x1 := rfl
theorem srcCol_eq_v38 (x1 : (⟨S2x1600000, .i32⟩ : BufTy).Contents (Elt Ideal)) : val_main_v38 (F := Ideal) x1 = srcCol x1 := rfl
theorem srcCol_eq_v63 (x1 : (⟨S2x1600000, .i32⟩ : BufTy).Contents (Elt Ideal)) : val_main_v63 (F := Ideal) x1 = srcCol x1 := rfl
theorem dstCol_eq_v18 (x1 : (⟨S2x1600000, .i32⟩ : BufTy).Contents (Elt Ideal)) : val_main_v18 (F := Ideal) x1 = dstCol x1 := rfl
theorem dstCol_eq_v43 (x1 : (⟨S2x1600000, .i32⟩ : BufTy).Contents (Elt Ideal)) : val_main_v43 (F := Ideal) x1 = dstCol x1 := rfl
theorem dstCol_eq_v68 (x1 : (⟨S2x1600000, .i32⟩ : BufTy).Contents (Elt Ideal)) : val_main_v68 (F := Ideal) x1 = dstCol x1 := rfl
theorem zeros7_eq : val_main_v17 (F := Ideal) = zeros7 := rfl
theorem zeros128_eq_v42 : val_main_v42 (F := Ideal) = zeros128 := rfl
theorem zeros128_eq_v67 : val_main_v67 (F := Ideal) = zeros128 := rfl

/-! ## The layers, stage by stage -/

theorem msg1_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) : val_main_v16 (F := Ideal) x0 x1 x2 x4 x5 = msg1 x0 x1 x2 x4 x5 := by
  rw [ref_edge1]
  unfold msg1 gat1 val_main_v14
  rw [srcCol_eq_v13, row7_eq]
  rfl

theorem feat1_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) : val_main_v28 (F := Ideal) x0 x1 x2 x4 x5 x6 x7 = feat1 x0 x1 x2 x4 x5 x6 x7 := by
  rw [ref_node1]
  unfold feat1 agg1 val_main_v19
  rw [zeros7_eq, dstCol_eq_v18, msg1_eq, row128_eq_v24]
  rfl

theorem msg2_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) : val_main_v41 (F := Ideal) x0 x1 x2 x4 x5 x6 x7 x8 x9 = msgH (feat1 x0 x1 x2 x4 x5 x6 x7) x1 x2 x8 x9 := by
  rw [ref_edge2]
  unfold msgH gatH val_main_v39
  rw [feat1_eq, srcCol_eq_v38, row128_eq_v30]
  rfl

theorem feat2_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) : val_main_v53 (F := Ideal) x0 x1 x2 x4 x5 x6 x7 x8 x9 x10 x11 = featH (feat1 x0 x1 x2 x4 x5 x6 x7) x1 x2 x8 x9 x10 x11 := by
  rw [ref_node2]
  unfold featH aggH val_main_v44
  rw [zeros128_eq_v42, dstCol_eq_v43, msg2_eq, feat1_eq, row128_eq_v49]
  rfl

theorem msg3_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) : val_main_v66 (F := Ideal) x0 x1 x2 x4 x5 x6 x7 x8 x9 x10 x11 x12 x13 = msgH (featH (feat1 x0 x1 x2 x4 x5 x6 x7) x1 x2 x8 x9 x10 x11) x1 x2 x12 x13 := by
  rw [ref_edge3]
  unfold msgH gatH val_main_v64
  rw [feat2_eq, srcCol_eq_v63, row128_eq_v55]
  rfl

theorem feat3_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) : val_main_v77 (F := Ideal) x0 x1 x2 x4 x5 x6 x7 x8 x9 x10 x11 x12 x13 x14 x15 = featH (featH (feat1 x0 x1 x2 x4 x5 x6 x7) x1 x2 x8 x9 x10 x11) x1 x2 x12 x13 x14 x15 := by
  rw [ref_node3]
  unfold featH aggH val_main_v69
  rw [zeros128_eq_v67, dstCol_eq_v68, msg3_eq, feat2_eq, row128_eq_v74]
  rfl

/-! ## The result -/

/-- THE REFERENCE'S RESULT is the network of its argument arrays: the pooling tail, the same host operations in both
    programs, applied to the third layer's features. -/
theorem out_eq (x0 : (⟨S100000x7, .f32⟩ : BufTy).Contents (Elt Ideal)) (x1 : (⟨S2x1600000, .i32⟩ : BufTy).Contents (Elt Ideal)) (x2 : (⟨S1600000x1, .f32⟩ : BufTy).Contents (Elt Ideal)) (x3 : (⟨S100000, .i32⟩ : BufTy).Contents (Elt Ideal)) (x4 : (⟨S1x7, .f32⟩ : BufTy).Contents (Elt Ideal)) (x5 : (⟨S7, .f32⟩ : BufTy).Contents (Elt Ideal)) (x6 : (⟨S7x128, .f32⟩ : BufTy).Contents (Elt Ideal)) (x7 : (⟨S128, .f32⟩ : BufTy).Contents (Elt Ideal)) (x8 : (⟨S1x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S1x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x5, .f32⟩ : BufTy).Contents (Elt Ideal)) (x17 : (⟨S5, .f32⟩ : BufTy).Contents (Elt Ideal)) : val_main_v92 (F := Ideal) x0 x1 x2 x3 x4 x5 x6 x7 x8 x9 x10 x11 x12 x13 x14 x15 x16 x17 = network x0 x1 x2 x3 x4 x5 x6 x7 x8 x9 x10 x11 x12 x13 x14 x15 x16 x17 := by
  unfold val_main_v92 val_main_v89 val_main_v88 val_main_v80
  rw [feat3_eq]
  rfl

end Cert.ReferenceIdeal.RefValue

end
-- ==== Proof.lean ====
/-
  The certificate of a three-layer edge-conditioned graph network: a Pallas kernel program (per layer an edge kernel
  and a node kernel, with the gather, the scatter-add and the pooling tail left to the host) against a plain host
  reference.

  Per layer, with node features `h`, edge attributes `ea`, source and target nodes `src`, `dst`:
  the edge message is `max (h[src] + (ea * we + be)) 0` — the reference writes `ea @ We`, a contraction over an axis of
  extent one, which is the product —; the messages are summed into their target nodes; the node update is
  `max ((agg + h) @ W + b) 0` — the kernel casts both factors to bf16 (the identity on the extended reals), the
  reference multiplies `h` by the literal one (`1 * x = x`) and, between layers, clamps a second time
  (`max (max y 0) 0 = max y 0`). None of these laws needs the inputs finite, so the precondition is never opened.

  The kernel side: the program's run with the result array named (`KernelRun`), the buffer contents
  walked back through the thirteen boundaries of the program (`KernelThru`, `KernelChain`), each of the six regions'
  output arrays as `edgeRows` / `nodeRows` of its input arrays (`Edge0`, `Edge2`, `Edge4`, `Node1`, `Node3`, `Node5`).
  The reference side: its generated run, its stages read as the same two functions (`RefEdge`, `RefNode`) and
  composed (`Bridge`). Both results are `Cert.Stages.network` of the argument arrays.
-/
import proofs.«117926_j9294309228817_1_alg».proof.Defs
import proofs.«117926_j9294309228817_1_alg».proof.Proof.Gen.Kernel
import proofs.«117926_j9294309228817_1_alg».proof.Proof.Gen.Kernel.Skeleton
import proofs.«117926_j9294309228817_1_alg».proof.Proof.Gen.Kernel.Launch
import proofs.«117926_j9294309228817_1_alg».proof.Proof.Gen.Kernel.Points
import proofs.«117926_j9294309228817_1_alg».proof.Proof.Gen.Kernel.Frame
import proofs.«117926_j9294309228817_1_alg».proof.Proof.Gen.KernelIdeal
import proofs.«117926_j9294309228817_1_alg».proof.Proof.Gen.KernelIdeal.Skeleton
import proofs.«117926_j9294309228817_1_alg».proof.Proof.Gen.KernelIdeal.Launch
import proofs.«117926_j9294309228817_1_alg».proof.Proof.Gen.KernelIdeal.Points
import proofs.«117926_j9294309228817_1_alg».proof.Proof.Gen.KernelIdeal.Frame
import proofs.«117926_j9294309228817_1_alg».proof.Proof.Gen.ReferenceIdeal
import proofs.«117926_j9294309228817_1_alg».proof.Proof.Gen.ReferenceIdeal.Run
import proofs.«117926_j9294309228817_1_alg».proof.Proof.Gen.ReferenceIdeal.Read
import proofs.«117926_j9294309228817_1_alg».proof.Proof.Gen.Pre_finite_inputs
import proofs.«117926_j9294309228817_1_alg».proof.Proof.KernelRun
import proofs.«117926_j9294309228817_1_alg».proof.Proof.KernelChain
import proofs.«117926_j9294309228817_1_alg».proof.Proof.Edge0
import proofs.«117926_j9294309228817_1_alg».proof.Proof.Edge2
import proofs.«117926_j9294309228817_1_alg».proof.Proof.Edge4
import proofs.«117926_j9294309228817_1_alg».proof.Proof.Node1
import proofs.«117926_j9294309228817_1_alg».proof.Proof.Node3
import proofs.«117926_j9294309228817_1_alg».proof.Proof.Node5
import proofs.«117926_j9294309228817_1_alg».proof.Proof.Bridge
import Idealize.ShloMosaic.Adequacy
import Idealize.ShloMosaic.Init

set_option maxRecDepth 16384

noncomputable section

namespace Cert.Proof

open Idealize.ShloMosaic Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-! ## The two results are one function of the arguments -/

/-- The kernel program's run: the result array ends at the network of the argument arrays' launch contents, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v60)
          = Cert.Stages.network (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
              (m ((c.tc : Thread Cert.KernelIdeal.nD Cert.KernelIdeal.τ).loc Cert.KernelIdeal.main_arg10))
              (m ((c.tc : Thread Cert.KernelIdeal.nD Cert.KernelIdeal.τ).loc Cert.KernelIdeal.main_arg11))
              (m ((c.tc : Thread Cert.KernelIdeal.nD Cert.KernelIdeal.τ).loc Cert.KernelIdeal.main_arg12))
              (m ((c.tc : Thread Cert.KernelIdeal.nD Cert.KernelIdeal.τ).loc Cert.KernelIdeal.main_arg13))
              (m ((c.tc : Thread Cert.KernelIdeal.nD Cert.KernelIdeal.τ).loc Cert.KernelIdeal.main_arg14))
              (m ((c.tc : Thread Cert.KernelIdeal.nD Cert.KernelIdeal.τ).loc Cert.KernelIdeal.main_arg15))
              (m ((c.tc : Thread Cert.KernelIdeal.nD Cert.KernelIdeal.τ).loc Cert.KernelIdeal.main_arg16))
              (m ((c.tc : Thread Cert.KernelIdeal.nD Cert.KernelIdeal.τ).loc Cert.KernelIdeal.main_arg17))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run _ _ _).mono
    (fun r h c => ⟨(h c).1.trans (Cert.KernelIdeal.RunValue.W13_v60 m ρ c
        Cert.KernelIdeal.RegionValue.final0 Cert.KernelIdeal.RegionValue.final1 Cert.KernelIdeal.RegionValue.final2
        Cert.KernelIdeal.RegionValue.final3 Cert.KernelIdeal.RegionValue.final4 Cert.KernelIdeal.RegionValue.final5),
      (h c).2⟩)
    (Cert.KernelIdeal.RunValue.run_named (F := Ideal) m ρ)

/-- From memories agreeing on the arguments both programs end with the network of the argument arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v92_eq, Cert.ReferenceIdeal.RefValue.out_eq,
    h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
